-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x1024x1024 : Shape := ⟨3, ![32, 1024, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32x1024 .f32) (main_arg1 : FVec F S32x1024x1024 .f32) (main_arg2 : FVec F S32x1024x1024 .f32) (main_arg3 : FVec F S1024x1024 .f32) (main_arg4 : FVec F S1024 .f32) (main_arg5 : FVec F S1024x1024 .f32) (main_arg6 : FVec F S1024 .f32) (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_arg13 : FVec F S1024 .f32) (main_arg14 : FVec F S1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32x1024 : Shape := ⟨2, ![32, 1024]⟩
abbrev S32x1024x1024 : Shape := ⟨3, ![32, 1024, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x1024x1 : Shape := ⟨3, ![32, 1024, 1]⟩
abbrev S1x1024x1024 : Shape := ⟨3, ![1, 1024, 1024]⟩
abbrev S1x1024x1 : Shape := ⟨3, ![1, 1024, 1]⟩
abbrev S1024x1 : Shape := ⟨2, ![1024, 1]⟩
abbrev S32x4096 : Shape := ⟨2, ![32, 4096]⟩
abbrev S1x4096 : Shape := ⟨2, ![1, 4096]⟩

abbrev nBuf : Space → Nat
  | .hbm => 139
  | .vmem => 10
  | .smem => 0
  | _ => 0

abbrev hbmTy0_0 (i : Nat) : BufTy := match i % 128 with
  | 0 => ⟨S32x1024, .f32⟩
  | 1 => ⟨S32x1024x1024, .f32⟩
  | 2 => ⟨S32x1024x1024, .f32⟩
  | 3 => ⟨S1024x1024, .f32⟩
  | 4 => ⟨S1024, .f32⟩
  | 5 => ⟨S1024x1024, .f32⟩
  | 6 => ⟨S1024, .f32⟩
  | 7 => ⟨S4096x1024, .f32⟩
  | 8 => ⟨S4096, .f32⟩
  | 9 => ⟨S1024x4096, .f32⟩
  | 10 => ⟨S1024, .f32⟩
  | 11 => ⟨S1024, .f32⟩
  | 12 => ⟨S1024, .f32⟩
  | 13 => ⟨S1024, .f32⟩
  | 14 => ⟨S1024, .f32⟩
  | 15 => ⟨S_, .f32⟩
  | 16 => ⟨S32, .f32⟩
  | 17 => ⟨S32x1, .f32⟩
  | 18 => ⟨S_, .f32⟩
  | 19 => ⟨S32x1, .f32⟩
  | 20 => ⟨S32x1, .f32⟩
  | 21 => ⟨S_, .i32⟩
  | 22 => ⟨S_, .f32⟩
  | 23 => ⟨S32, .f32⟩
  | 24 => ⟨S32x1, .f32⟩
  | 25 => ⟨S_, .f32⟩
  | 26 => ⟨S32x1, .f32⟩
  | 27 => ⟨S32x1, .f32⟩
  | 28 => ⟨S32x1024, .f32⟩
  | 29 => ⟨S32x1024, .f32⟩
  | 30 => ⟨S32x1024, .f32⟩
  | 31 => ⟨S_, .f32⟩
  | 32 => ⟨S_, .f32⟩
  | 33 => ⟨S_, .f32⟩
  | 34 => ⟨S_, .f32⟩
  | 35 => ⟨S32, .f32⟩
  | 36 => ⟨S32x1, .f32⟩
  | 37 => ⟨S32x1, .f32⟩
  | 38 => ⟨S32x1, .f32⟩
  | 39 => ⟨S_, .f32⟩
  | 40 => ⟨S_, .i1⟩
  | 41 => ⟨S_, .f32⟩
  | 42 => ⟨S_, .f32⟩
  | 43 => ⟨S32x1, .f32⟩
  | 44 => ⟨S32x1, .f32⟩
  | 45 => ⟨S32x1024, .f32⟩
  | 46 => ⟨S32x1024, .f32⟩
  | 47 => ⟨S_, .f32⟩
  | 48 => ⟨S32x1, .f32⟩
  | 49 => ⟨S32x1, .f32⟩
  | 50 => ⟨S32x1, .f32⟩
  | 51 => ⟨S32x1024, .f32⟩
  | 52 => ⟨S32x1024, .f32⟩
  | 53 => ⟨S1x1024, .f32⟩
  | 54 => ⟨S32x1024, .f32⟩
  | 55 => ⟨S32x1024, .f32⟩
  | 56 => ⟨S1x1024, .f32⟩
  | 57 => ⟨S32x1024, .f32⟩
  | 58 => ⟨S32x1024, .f32⟩
  | 59 => ⟨S1024x1024, .f32⟩
  | 60 => ⟨S32x1024, .f32⟩
  | 61 => ⟨S1x1024, .f32⟩
  | 62 => ⟨S32x1024, .f32⟩
  | 63 => ⟨S32x1024, .f32⟩
  | 64 => ⟨S32x1024, .f32⟩
  | 65 => ⟨S1024x1024, .f32⟩
  | 66 => ⟨S32x1024, .f32⟩
  | 67 => ⟨S1x1024, .f32⟩
  | 68 => ⟨S32x1024, .f32⟩
  | 69 => ⟨S32x1024, .f32⟩
  | 70 => ⟨S32x1024x1, .f32⟩
  | 71 => ⟨S32x1024x1, .f32⟩
  | 72 => ⟨S32x1024x1, .f32⟩
  | 73 => ⟨S32x1024, .f32⟩
  | 74 => ⟨S32x1024, .f32⟩
  | 75 => ⟨S_, .f32⟩
  | 76 => ⟨S32, .f32⟩
  | 77 => ⟨S32x1, .f32⟩
  | 78 => ⟨S_, .f32⟩
  | 79 => ⟨S32x1, .f32⟩
  | 80 => ⟨S32x1, .f32⟩
  | 81 => ⟨S_, .i32⟩
  | 82 => ⟨S_, .f32⟩
  | 83 => ⟨S32, .f32⟩
  | 84 => ⟨S32x1, .f32⟩
  | 85 => ⟨S_, .f32⟩
  | 86 => ⟨S32x1, .f32⟩
  | 87 => ⟨S32x1, .f32⟩
  | 88 => ⟨S32x1024, .f32⟩
  | 89 => ⟨S32x1024, .f32⟩
  | 90 => ⟨S32x1024, .f32⟩
  | 91 => ⟨S_, .f32⟩
  | 92 => ⟨S_, .f32⟩
  | 93 => ⟨S_, .f32⟩
  | 94 => ⟨S_, .f32⟩
  | 95 => ⟨S32, .f32⟩
  | 96 => ⟨S32x1, .f32⟩
  | 97 => ⟨S32x1, .f32⟩
  | 98 => ⟨S32x1, .f32⟩
  | 99 => ⟨S_, .f32⟩
  | 100 => ⟨S_, .i1⟩
  | 101 => ⟨S_, .f32⟩
  | 102 => ⟨S_, .f32⟩
  | 103 => ⟨S32x1, .f32⟩
  | 104 => ⟨S32x1, .f32⟩
  | 105 => ⟨S32x1024, .f32⟩
  | 106 => ⟨S32x1024, .f32⟩
  | 107 => ⟨S_, .f32⟩
  | 108 => ⟨S32x1, .f32⟩
  | 109 => ⟨S32x1, .f32⟩
  | 110 => ⟨S32x1, .f32⟩
  | 111 => ⟨S32x1024, .f32⟩
  | 112 => ⟨S32x1024, .f32⟩
  | 113 => ⟨S1x1024, .f32⟩
  | 114 => ⟨S32x1024, .f32⟩
  | 115 => ⟨S32x1024, .f32⟩
  | 116 => ⟨S1x1024, .f32⟩
  | 117 => ⟨S32x1024, .f32⟩
  | 118 => ⟨S32x1024, .f32⟩
  | 119 => ⟨S1024x4096, .f32⟩
  | 120 => ⟨S32x4096, .f32⟩
  | 121 => ⟨S1x4096, .f32⟩
  | 122 => ⟨S32x4096, .f32⟩
  | 123 => ⟨S32x4096, .f32⟩
  | 124 => ⟨S32x4096, .f32⟩
  | 125 => ⟨S32x4096, .f32⟩
  | 126 => ⟨S_, .f32⟩
  | 127 => ⟨S32x4096, .f32⟩
  | _ => ⟨S32x1024, .f32⟩

abbrev hbmTy0_1 (i : Nat) : BufTy := match i % 128 with
  | 0 => ⟨S32x4096, .f32⟩
  | 1 => ⟨S_, .f32⟩
  | 2 => ⟨S32x4096, .f32⟩
  | 3 => ⟨S32x4096, .f32⟩
  | 4 => ⟨S32x4096, .f32⟩
  | 5 => ⟨S4096x1024, .f32⟩
  | 6 => ⟨S32x1024, .f32⟩
  | 7 => ⟨S1x1024, .f32⟩
  | 8 => ⟨S32x1024, .f32⟩
  | 9 => ⟨S32x1024, .f32⟩
  | 10 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_2 : Ref sig .tc := ⟨.hbm, 75, rfl⟩
abbrev main_v34 : Ref sig .tc := ⟨.hbm, 76, rfl⟩
abbrev main_v35 : Ref sig .tc := ⟨.hbm, 77, rfl⟩
abbrev main_cst_3 : Ref sig .tc := ⟨.hbm, 78, rfl⟩
abbrev main_v36 : Ref sig .tc := ⟨.hbm, 79, rfl⟩
abbrev main_v37 : Ref sig .tc := ⟨.hbm, 80, rfl⟩
abbrev main_c_4 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_cst_3 : Ref sig .tc := ⟨.hbm, 99, rfl⟩
abbrev main_call1_v13 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_cst_5 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_call2_v0 : Ref sig .tc := ⟨.hbm, 124, rfl⟩
abbrev main_call2_v1 : Ref sig .tc := ⟨.hbm, 125, rfl⟩
abbrev main_call2_cst : Ref sig .tc := ⟨.hbm, 126, rfl⟩
abbrev main_call2_v2 : Ref sig .tc := ⟨.hbm, 127, rfl⟩
abbrev main_call2_v3 : Ref sig .tc := ⟨.hbm, 128, rfl⟩
abbrev main_call2_cst_0 : Ref sig .tc := ⟨.hbm, 129, rfl⟩
abbrev main_call2_v4 : Ref sig .tc := ⟨.hbm, 130, rfl⟩
abbrev main_call2_v5 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S32x1024_S32_d1 : S32x1024.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  transposes_S1024x1024_S1024x1024_1_0 : S1024x1024.Transposes [1, 0] S1024x1024
  bcast_S32x1024_S32x1024x1_0_1 : S32x1024.BroadcastsInDim S32x1024x1 (![0, 1] : Fin 2 → Fin S32x1024x1.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x1024 : S1024x1.Broadcasts S1024x1024
  reduces_S1024x1024_S1024 : S1024x1024.Reduces [1] S1024
  shapeCasts_S1024_S1024x1 : S1024.ShapeCasts S1024x1
  shapeCasts_S1024x1_S1x1024x1 : S1024x1.ShapeCasts S1x1024x1
  shapeCasts_S32x1024x1_S32x1024 : S32x1024x1.ShapeCasts S32x1024
  transposes_S4096x1024_S1024x4096_1_0 : S4096x1024.Transposes [1, 0] S1024x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  bcast_S_S32x4096 : S_.BroadcastsInDim S32x4096 (![] : Fin 0 → Fin S32x4096.rank)
  transposes_S1024x4096_S4096x1024_1_0 : S1024x4096.Transposes [1, 0] S4096x1024
  dot_S32x1024_S1024x1024_S32x1024_1_0_0_1_n_n_wf : DotDims.WF S32x1024 S1024x1024 S32x1024 [1] [0] [0] [1] [] []
  dot_S32x1024_S1024x4096_S32x4096_1_0_0_1_n_n_wf : DotDims.WF S32x1024 S1024x4096 S32x4096 [1] [0] [0] [1] [] []
  dot_S32x4096_S4096x1024_S32x1024_1_0_0_1_n_n_wf : DotDims.WF S32x4096 S4096x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S32x1024x1.size a
  hwx0_2 : ∀ i : grid0.Coords, EltTy.bits .f32 = 32 ∨ (Rect.block (s := S32x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S32x1024x1.size a
  hwx0_3 : ∀ i : grid0.Coords, EltTy.bits .f32 = 32 ∨ (Rect.block (s := S32x1024x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S32x1024x1.size a
  hwx0_4 : ∀ i : grid0.Coords, EltTy.bits .f32 = 32 ∨ (Rect.block (s := S32x1024x1) S1x1024x1.size (cc0_transform_4 i) (hinb0_4 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S32x4096_S4096x1024_S32x1024_1_0_0_1_n_n : DotDims S32x4096 S4096x1024 S32x1024 where
  lhsContracting := [1]
  rhsContracting := [0]
  lhsNonContracting := [0]
  rhsNonContracting := [1]
  lhsBatch := []
  rhsBatch := []
  wf := dot_S32x4096_S4096x1024_S32x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024 : Shape := ⟨2, ![32, 1024]⟩
abbrev S32x1024x1024 : Shape := ⟨3, ![32, 1024, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x1024x1 : Shape := ⟨3, ![32, 1024, 1]⟩
abbrev S32x4096 : Shape := ⟨2, ![32, 4096]⟩
abbrev S1x4096 : Shape := ⟨2, ![1, 4096]⟩

abbrev nBuf : Space → Nat
  | .hbm => 153
  | .vmem => 0
  | .smem => 0
  | _ => 0

abbrev hbmTy0_0 (i : Nat) : BufTy := match i % 128 with
  | 0 => ⟨S32x1024, .f32⟩
  | 1 => ⟨S32x1024x1024, .f32⟩
  | 2 => ⟨S32x1024x1024, .f32⟩
  | 3 => ⟨S1024x1024, .f32⟩
  | 4 => ⟨S1024, .f32⟩
  | 5 => ⟨S1024x1024, .f32⟩
  | 6 => ⟨S1024, .f32⟩
  | 7 => ⟨S4096x1024, .f32⟩
  | 8 => ⟨S4096, .f32⟩
  | 9 => ⟨S1024x4096, .f32⟩
  | 10 => ⟨S1024, .f32⟩
  | 11 => ⟨S1024, .f32⟩
  | 12 => ⟨S1024, .f32⟩
  | 13 => ⟨S1024, .f32⟩
  | 14 => ⟨S1024, .f32⟩
  | 15 => ⟨S_, .f32⟩
  | 16 => ⟨S32, .f32⟩
  | 17 => ⟨S32x1, .f32⟩
  | 18 => ⟨S_, .f32⟩
  | 19 => ⟨S32x1, .f32⟩
  | 20 => ⟨S32x1, .f32⟩
  | 21 => ⟨S_, .i32⟩
  | 22 => ⟨S_, .f32⟩
  | 23 => ⟨S32, .f32⟩
  | 24 => ⟨S32x1, .f32⟩
  | 25 => ⟨S_, .f32⟩
  | 26 => ⟨S32x1, .f32⟩
  | 27 => ⟨S32x1, .f32⟩
  | 28 => ⟨S32x1024, .f32⟩
  | 29 => ⟨S32x1024, .f32⟩
  | 30 => ⟨S32x1024, .f32⟩
  | 31 => ⟨S_, .f32⟩
  | 32 => ⟨S_, .f32⟩
  | 33 => ⟨S_, .f32⟩
  | 34 => ⟨S_, .f32⟩
  | 35 => ⟨S32, .f32⟩
  | 36 => ⟨S32x1, .f32⟩
  | 37 => ⟨S32x1, .f32⟩
  | 38 => ⟨S32x1, .f32⟩
  | 39 => ⟨S_, .f32⟩
  | 40 => ⟨S_, .i1⟩
  | 41 => ⟨S_, .f32⟩
  | 42 => ⟨S_, .f32⟩
  | 43 => ⟨S32x1, .f32⟩
  | 44 => ⟨S32x1, .f32⟩
  | 45 => ⟨S32x1024, .f32⟩
  | 46 => ⟨S32x1024, .f32⟩
  | 47 => ⟨S_, .f32⟩
  | 48 => ⟨S32x1, .f32⟩
  | 49 => ⟨S32x1, .f32⟩
  | 50 => ⟨S32x1, .f32⟩
  | 51 => ⟨S32x1024, .f32⟩
  | 52 => ⟨S32x1024, .f32⟩
  | 53 => ⟨S1x1024, .f32⟩
  | 54 => ⟨S32x1024, .f32⟩
  | 55 => ⟨S32x1024, .f32⟩
  | 56 => ⟨S1x1024, .f32⟩
  | 57 => ⟨S32x1024, .f32⟩
  | 58 => ⟨S32x1024, .f32⟩
  | 59 => ⟨S1024x1024, .f32⟩
  | 60 => ⟨S32x1024, .f32⟩
  | 61 => ⟨S1x1024, .f32⟩
  | 62 => ⟨S32x1024, .f32⟩
  | 63 => ⟨S32x1024, .f32⟩
  | 64 => ⟨S32x1024, .f32⟩
  | 65 => ⟨S32x1024x1, .f32⟩
  | 66 => ⟨S1024x1024, .f32⟩
  | 67 => ⟨S32x1024, .f32⟩
  | 68 => ⟨S1x1024, .f32⟩
  | 69 => ⟨S32x1024, .f32⟩
  | 70 => ⟨S32x1024, .f32⟩
  | 71 => ⟨S32x1024x1, .f32⟩
  | 72 => ⟨S32x1024x1024, .f32⟩
  | 73 => ⟨S32x1024x1024, .f32⟩
  | 74 => ⟨S32x1024x1024, .f32⟩
  | 75 => ⟨S_, .f32⟩
  | 76 => ⟨S32x1024x1024, .f32⟩
  | 77 => ⟨S32x1024x1024, .f32⟩
  | 78 => ⟨S32x1024x1, .f32⟩
  | 79 => ⟨S_, .f32⟩
  | 80 => ⟨S32x1024x1, .f32⟩
  | 81 => ⟨S32x1024x1, .f32⟩
  | 82 => ⟨S32x1024x1024, .f32⟩
  | 83 => ⟨S32x1024x1024, .f32⟩
  | 84 => ⟨S32x1024x1024, .f32⟩
  | 85 => ⟨S32x1024x1024, .f32⟩
  | 86 => ⟨S_, .f32⟩
  | 87 => ⟨S32x1024, .f32⟩
  | 88 => ⟨S32x1024, .f32⟩
  | 89 => ⟨S_, .f32⟩
  | 90 => ⟨S32, .f32⟩
  | 91 => ⟨S32x1, .f32⟩
  | 92 => ⟨S_, .f32⟩
  | 93 => ⟨S32x1, .f32⟩
  | 94 => ⟨S32x1, .f32⟩
  | 95 => ⟨S_, .i32⟩
  | 96 => ⟨S_, .f32⟩
  | 97 => ⟨S32, .f32⟩
  | 98 => ⟨S32x1, .f32⟩
  | 99 => ⟨S_, .f32⟩
  | 100 => ⟨S32x1, .f32⟩
  | 101 => ⟨S32x1, .f32⟩
  | 102 => ⟨S32x1024, .f32⟩
  | 103 => ⟨S32x1024, .f32⟩
  | 104 => ⟨S32x1024, .f32⟩
  | 105 => ⟨S_, .f32⟩
  | 106 => ⟨S_, .f32⟩
  | 107 => ⟨S_, .f32⟩
  | 108 => ⟨S_, .f32⟩
  | 109 => ⟨S32, .f32⟩
  | 110 => ⟨S32x1, .f32⟩
  | 111 => ⟨S32x1, .f32⟩
  | 112 => ⟨S32x1, .f32⟩
  | 113 => ⟨S_, .f32⟩
  | 114 => ⟨S_, .i1⟩
  | 115 => ⟨S_, .f32⟩
  | 116 => ⟨S_, .f32⟩
  | 117 => ⟨S32x1, .f32⟩
  | 118 => ⟨S32x1, .f32⟩
  | 119 => ⟨S32x1024, .f32⟩
  | 120 => ⟨S32x1024, .f32⟩
  | 121 => ⟨S_, .f32⟩
  | 122 => ⟨S32x1, .f32⟩
  | 123 => ⟨S32x1, .f32⟩
  | 124 => ⟨S32x1, .f32⟩
  | 125 => ⟨S32x1024, .f32⟩
  | 126 => ⟨S32x1024, .f32⟩
  | 127 => ⟨S1x1024, .f32⟩
  | _ => ⟨S32x1024, .f32⟩

abbrev hbmTy0_1 (i : Nat) : BufTy := match i % 128 with
  | 0 => ⟨S32x1024, .f32⟩
  | 1 => ⟨S32x1024, .f32⟩
  | 2 => ⟨S1x1024, .f32⟩
  | 3 => ⟨S32x1024, .f32⟩
  | 4 => ⟨S32x1024, .f32⟩
  | 5 => ⟨S1024x4096, .f32⟩
  | 6 => ⟨S32x4096, .f32⟩
  | 7 => ⟨S1x4096, .f32⟩
  | 8 => ⟨S32x4096, .f32⟩
  | 9 => ⟨S32x4096, .f32⟩
  | 10 => ⟨S32x4096, .f32⟩
  | 11 => ⟨S32x4096, .f32⟩
  | 12 => ⟨S_, .f32⟩
  | 13 => ⟨S32x4096, .f32⟩
  | 14 => ⟨S32x4096, .f32⟩
  | 15 => ⟨S_, .f32⟩
  | 16 => ⟨S32x4096, .f32⟩
  | 17 => ⟨S32x4096, .f32⟩
  | 18 => ⟨S32x4096, .f32⟩
  | 19 => ⟨S4096x1024, .f32⟩
  | 20 => ⟨S32x1024, .f32⟩
  | 21 => ⟨S1x1024, .f32⟩
  | 22 => ⟨S32x1024, .f32⟩
  | 23 => ⟨S32x1024, .f32⟩
  | 24 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_2 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_3 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_4 : Ref sig .tc := ⟨.hbm, 86, rfl⟩
abbrev main_v43 : Ref sig .tc := ⟨.hbm, 87, rfl⟩
abbrev main_v44 : Ref sig .tc := ⟨.hbm, 88, rfl⟩
abbrev main_cst_5 : Ref sig .tc := ⟨.hbm, 89, rfl⟩
abbrev main_v45 : Ref sig .tc := ⟨.hbm, 90, rfl⟩
abbrev main_v46 : Ref sig .tc := ⟨.hbm, 91, rfl⟩
abbrev main_cst_6 : Ref sig .tc := ⟨.hbm, 92, rfl⟩
abbrev main_v47 : Ref sig .tc := ⟨.hbm, 93, rfl⟩
abbrev main_v48 : Ref sig .tc := ⟨.hbm, 94, rfl⟩
abbrev main_c_7 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_v12 : Ref sig .tc := ⟨.hbm, 112, rfl⟩
abbrev main_call1_cst_3 : Ref sig .tc := ⟨.hbm, 113, rfl⟩
abbrev main_call1_v13 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_cst_8 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_call2_v0 : Ref sig .tc := ⟨.hbm, 138, rfl⟩
abbrev main_call2_v1 : Ref sig .tc := ⟨.hbm, 139, rfl⟩
abbrev main_call2_cst : Ref sig .tc := ⟨.hbm, 140, rfl⟩
abbrev main_call2_v2 : Ref sig .tc := ⟨.hbm, 141, rfl⟩
abbrev main_call2_v3 : Ref sig .tc := ⟨.hbm, 142, rfl⟩
abbrev main_call2_cst_0 : Ref sig .tc := ⟨.hbm, 143, rfl⟩
abbrev main_call2_v4 : Ref sig .tc := ⟨.hbm, 144, rfl⟩
abbrev main_call2_v5 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩

abbrev nD : Nat := 1
abbrev τ : Topo := Topo.v7x

variable {F : FTy → Type} [FloatOps F]

class Facts₀ : Prop where
  reducesTo_S32x1024_S32_d1 : S32x1024.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  transposes_S1024x1024_S1024x1024_1_0 : S1024x1024.Transposes [1, 0] S1024x1024
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S32x1024x1 : S_.BroadcastsInDim S32x1024x1 (![] : Fin 0 → Fin S32x1024x1.rank)
  reducesTo_S32x1024x1024_S32x1024_d2 : S32x1024x1024.ReducesTo [2] S32x1024
  transposes_S4096x1024_S1024x4096_1_0 : S4096x1024.Transposes [1, 0] S1024x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  bcast_S_S32x4096 : S_.BroadcastsInDim S32x4096 (![] : Fin 0 → Fin S32x4096.rank)
  transposes_S1024x4096_S4096x1024_1_0 : S1024x4096.Transposes [1, 0] S4096x1024
  dot_S32x1024_S1024x1024_S32x1024_1_0_0_1_n_n_wf : DotDims.WF S32x1024 S1024x1024 S32x1024 [1] [0] [0] [1] [] []
  dot_S32x1024_S1024x4096_S32x4096_1_0_0_1_n_n_wf : DotDims.WF S32x1024 S1024x4096 S32x4096 [1] [0] [0] [1] [] []
  dot_S32x4096_S4096x1024_S32x1024_1_0_0_1_n_n_wf : DotDims.WF S32x4096 S4096x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S32x4096_S4096x1024_S32x1024_1_0_0_1_n_n : DotDims S32x4096 S4096x1024 S32x1024 where
  lhsContracting := [1]
  rhsContracting := [0]
  lhsNonContracting := [0]
  rhsNonContracting := [1]
  lhsBatch := []
  rhsBatch := []
  wf := dot_S32x4096_S4096x1024_S32x1024_1_0_0_1_n_n_wf

class Facts : Prop extends Facts₀ where

variable [Facts]
-- ==== Proof.BFrame.lean ====
/-
  The frame run of the program with the Gaussian-kernel pallas_call: @main is host operations, one pipeline region
  over a grid of 32 points (one batch row each), and host operations again. At point t the body loads the K and V
  blocks [1, 1024, 1024] and the mu and sigma columns [1, 1024, 1] of row t whole, also its own output buffer
  (a load whose value it drops), and stores one column [1, 1024, 1]: the named payload of the four input blocks.
  So after the body each input window's buffer holds its block, and the output window's the payload of the blocks;
  the invariant is the class's (nothing scoped is used), nothing is owed, every share is full.
  The run is the library's frame run around a region; its post names every window's array after the last point
  and every other buffer as the lines after the region leave it.
-/
import proofs.«138627_j71528385347626_2_alg».proof.Proof.Gen.Kernel.Skeleton
import proofs.«138627_j71528385347626_2_alg».proof.Proof.Gen.Kernel.Launch
import proofs.«138627_j71528385347626_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, -/
abbrev preOps : List (List (HloOp τ sig (Elt F))) := [hostOps0, hostOps0_1, hostOps0_2]
/-- and those after it. -/
abbrev tailOps : List (List (HloOp τ sig (Elt F))) := [hostOps1, hostOps1_1, hostOps1_2, hostOps1_3, hostOps1_4]

/-- Core c's buffer contents when the region is entered: the lines before it folded over the launch contents. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem pre_fresh : (preOps : List (List (HloOp τ sig (Elt F)))).Forall fun ops => ops.Forall fun op => op.fresh = ∅ := by
  simp only [List.Forall]; repeat' constructor

theorem pre_sub : (preOps : List (List (HloOp τ sig (Elt F)))).Forall fun ops => ops.Forall fun op => op.bufs ⊆ StableHlo.tcRefs τ sig :=
  ⟨hostOps0_sub, hostOps0_1_sub, hostOps0_2_sub⟩

/-- @main reduces to the region continued by the later lines, the buffers at V when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub pre_fresh main_chain

/-- The lines after the region touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : (tailOps : List (List (HloOp τ sig (Elt F)))).Forall fun ops => ops.Forall fun op => op.fresh = ∅ := by
  simp only [List.Forall]; repeat' constructor

/-- They allocate nothing. -/
theorem sfx_fresh : ∀ ops ∈ (tailOps : List (List (HloOp τ sig (Elt F)))), ∀ op ∈ ops, op.fresh = ∅ := fun ops hops op hop =>
  (List.forall_iff_forall_mem.mp ((List.forall_iff_forall_mem.mp tail_fresh) ops hops)) op hop

/-- Closes "this line writes no array of the pipeline" for each line of a stretch: a line writes its own result
    buffer only. -/
local macro "keeps_tac" : tactic => `(tactic| (
  simp only [List.Forall]
  repeat' constructor
  all_goals intro w; fin_cases w <;> simp only [StableHlo.nullary_writes, StableHlo.unary_writes, StableHlo.binary_writes, StableHlo.ternary_writes, StableHlo.reshape_writes, StableHlo.TRef.nullary, StableHlo.TRef.unary, StableHlo.TRef.binary, StableHlo.TRef.ternary, Finset.mem_singleton] <;> exact StableHlo.devRef_ne_of_ne (by decide)))

set_option maxHeartbeats 4000000 in
theorem keeps_1 : (hostOps1 : List (HloOp τ sig (Elt F))).Forall fun op => ∀ w, Proc.devRef .tc (Pipeline.arrRef spec0 w) ∉ op.writes := by keeps_tac
set_option maxHeartbeats 4000000 in
theorem keeps_2 : (hostOps1_1 : List (HloOp τ sig (Elt F))).Forall fun op => ∀ w, Proc.devRef .tc (Pipeline.arrRef spec0 w) ∉ op.writes := by keeps_tac
set_option maxHeartbeats 4000000 in
theorem keeps_3 : (hostOps1_2 : List (HloOp τ sig (Elt F))).Forall fun op => ∀ w, Proc.devRef .tc (Pipeline.arrRef spec0 w) ∉ op.writes := by keeps_tac
set_option maxHeartbeats 4000000 in
theorem keeps_4 : (hostOps1_3 : List (HloOp τ sig (Elt F))).Forall fun op => ∀ w, Proc.devRef .tc (Pipeline.arrRef spec0 w) ∉ op.writes := by keeps_tac
set_option maxHeartbeats 4000000 in
theorem keeps_5 : (hostOps1_4 : List (HloOp τ sig (Elt F))).Forall fun op => ∀ w, Proc.devRef .tc (Pipeline.arrRef spec0 w) ∉ op.writes := by keeps_tac

/-- Each line after the region writes its own result buffer, which is no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp keeps_1) op hop
  · exact (List.forall_iff_forall_mem.mp keeps_2) op hop
  · exact (List.forall_iff_forall_mem.mp keeps_3) op hop
  · exact (List.forall_iff_forall_mem.mp keeps_4) op hop
  · exact (List.forall_iff_forall_mem.mp keeps_5) op hop

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rK : Rect S1x1024x1024 := Rect.unit (s := S1x1024x1024) ![0, 0, 0] S1x1024x1024.size inb_S1x1024x1024_S1x1024x1024_0_0_0
abbrev rC : Rect S1x1024x1 := Rect.unit (s := S1x1024x1) ![0, 0, 0] S1x1024x1.size inb_S1x1024x1_S1x1024x1_0_0_0

/-- The output window's staging buffer after the body, from the input windows' blocks: its one store as a piece. -/
def out0_4 (x0 x1 : Vec F S1x1024x1024 .f32) (x2 x3 : Vec F S1x1024x1 .f32) : Vec F S1x1024x1 .f32 :=
  View.canon [⟨rC, k0_pay1 (View.ld x0 rK) (View.ld x1 rK) (View.ld x2 rC) (View.ld x3 rC)⟩]

/-- The store's rectangle is the whole buffer, so it covers it. -/
theorem cover0_4 (p0 : Vec F S1x1024x1 .f32) (y : S1x1024x1.Idx) :
    ∃ pc ∈ ([⟨rC, p0⟩] : List (View.Piece (Elt F) S1x1024x1 .f32)), y ∈ pc.1.set :=
  View.cover_of_tiled [⟨rC, p0⟩] S1x1024x1.size (by rfl) y

/-! ## The body's triple -/

set_option maxHeartbeats 1000000 in
/-- The kernel body on whole staging memrefs, the inputs' at read contents and the output's at anything, runs to the
    continuation holding the inputs' as they were and the output's at out0_4 of the inputs'. -/
theorem sound_kernel (c : Dev nD) (E : Set ℕ) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S1x1024x1 .f32) (harg5 : arg5.IsWhole)
    (x0 x1 : Vec F S1x1024x1024 .f32) (x2 x3 : Vec F S1x1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gaussian_kernel i arg1 harg1 arg2 harg2 arg3 harg3 arg4 harg4 arg5 harg5) K := by
  simp only [cc0__gaussian_kernel_eq_skeleton]; unfold cc0__gaussian_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core c: the arrays as the region finds them; after the body at point t each
    input's buffer at its block and the output's at out0_4 of the input blocks; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has every
    array of the pipeline at what the library computes from the proof data and every other unscoped buffer as the
    lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Hand

end
-- ==== Proof.BKeeps.lean ====
/-
  No host line of the program writes an argument array: each line writes its own result buffer, and that buffer is
  none of the fifteen arguments. So every argument reads the same before and after any stretch of the lines.
-/
import proofs.«138627_j71528385347626_2_alg».proof.Proof.BFrame

set_option maxRecDepth 16384

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]

/-- The fifteen argument arrays. -/
abbrev argRefs : List (Ref sig .tc) :=
  [main_arg0, main_arg1, main_arg2, main_arg3, main_arg4, main_arg5, main_arg6, main_arg7, main_arg8, main_arg9,
   main_arg10, main_arg11, main_arg12, main_arg13, main_arg14]

/-- A line whose one result buffer is no argument writes no argument. -/
theorem not_write_of {y : Ref sig .tc} (hy : y ∉ argRefs) :
    ∀ r ∈ argRefs, Proc.devRef (τ := τ) .tc r ∉ ({Proc.devRef .tc y} : Finset (DevRef τ sig)) :=
  fun r hr h => hy (Proc.devRef_injective _ (Finset.mem_singleton.mp h) ▸ hr)

/-- Closes "no line of this stretch writes an argument". -/
local macro "wr_tac" : tactic => `(tactic| (
  simp only [List.Forall]
  repeat' constructor
  all_goals (simp only [StableHlo.nullary_writes, StableHlo.unary_writes, StableHlo.binary_writes, StableHlo.ternary_writes, StableHlo.reshape_writes, StableHlo.TRef.nullary, StableHlo.TRef.unary, StableHlo.TRef.binary, StableHlo.TRef.ternary]; exact not_write_of (by decide))))

set_option maxHeartbeats 4000000 in
theorem wr0 : (hostOps0 : List (HloOp τ sig (Elt F))).Forall fun op => ∀ r ∈ argRefs, Proc.devRef .tc r ∉ op.writes := by wr_tac
set_option maxHeartbeats 4000000 in
theorem wr0_1 : (hostOps0_1 : List (HloOp τ sig (Elt F))).Forall fun op => ∀ r ∈ argRefs, Proc.devRef .tc r ∉ op.writes := by wr_tac
set_option maxHeartbeats 4000000 in
theorem wr0_2 : (hostOps0_2 : List (HloOp τ sig (Elt F))).Forall fun op => ∀ r ∈ argRefs, Proc.devRef .tc r ∉ op.writes := by wr_tac
set_option maxHeartbeats 4000000 in
theorem wr1 : (hostOps1 : List (HloOp τ sig (Elt F))).Forall fun op => ∀ r ∈ argRefs, Proc.devRef .tc r ∉ op.writes := by wr_tac
set_option maxHeartbeats 4000000 in
theorem wr1_1 : (hostOps1_1 : List (HloOp τ sig (Elt F))).Forall fun op => ∀ r ∈ argRefs, Proc.devRef .tc r ∉ op.writes := by wr_tac
set_option maxHeartbeats 4000000 in
theorem wr1_2 : (hostOps1_2 : List (HloOp τ sig (Elt F))).Forall fun op => ∀ r ∈ argRefs, Proc.devRef .tc r ∉ op.writes := by wr_tac
set_option maxHeartbeats 4000000 in
theorem wr1_3 : (hostOps1_3 : List (HloOp τ sig (Elt F))).Forall fun op => ∀ r ∈ argRefs, Proc.devRef .tc r ∉ op.writes := by wr_tac
set_option maxHeartbeats 4000000 in
theorem wr1_4 : (hostOps1_4 : List (HloOp τ sig (Elt F))).Forall fun op => ∀ r ∈ argRefs, Proc.devRef .tc r ∉ op.writes := by wr_tac

/-- The lines before the region leave every argument as they found it. -/
theorem keeps_pre (W : Valuation τ sig (Elt F)) (r : Ref sig .tc) (hr : r ∈ argRefs) :
    after (List.flatten (preOps (F := F))) W (Proc.devRef .tc r) = W (Proc.devRef .tc r) :=
  after_of_forall_not_mem _ W fun op hop => by
    obtain ⟨ops, hops, hop'⟩ := List.mem_flatten.mp hop
    simp only [List.mem_cons, List.mem_nil_iff, or_false] at hops
    rcases hops with rfl | rfl | rfl
    · exact (List.forall_iff_forall_mem.mp wr0) op hop' r hr
    · exact (List.forall_iff_forall_mem.mp wr0_1) op hop' r hr
    · exact (List.forall_iff_forall_mem.mp wr0_2) op hop' r hr

/-- The lines after the region leave every argument as they found it. -/
theorem keeps_tail (W : Valuation τ sig (Elt F)) (r : Ref sig .tc) (hr : r ∈ argRefs) :
    after (List.flatten (tailOps (F := F))) W (Proc.devRef .tc r) = W (Proc.devRef .tc r) :=
  after_of_forall_not_mem _ W fun op hop => by
    obtain ⟨ops, hops, hop'⟩ := List.mem_flatten.mp hop
    simp only [List.mem_cons, List.mem_nil_iff, or_false] at hops
    rcases hops with rfl | rfl | rfl | rfl | rfl
    · exact (List.forall_iff_forall_mem.mp wr1) op hop' r hr
    · exact (List.forall_iff_forall_mem.mp wr1_1) op hop' r hr
    · exact (List.forall_iff_forall_mem.mp wr1_2) op hop' r hr
    · exact (List.forall_iff_forall_mem.mp wr1_3) op hop' r hr
    · exact (List.forall_iff_forall_mem.mp wr1_4) op hop' r hr

end Cert.Kernel.Hand

end
-- ==== Proof.BPost.lean ====
/-
  What the frame run's final states say about the argument arrays and the result. K and V reach the kernel through
  input windows, and an input window's array ends as the region found it; every other argument is a buffer no
  window stages, which ends as the lines after the region leave it: untouched, as the lines before the region left
  it: untouched again. The result buffer ends at the fold of the lines after the region over the region's exit
  contents: the output window's array at what the grid wrote back, every other buffer as the region found it.
-/
import proofs.«138627_j71528385347626_2_alg».proof.Proof.BKeeps

set_option maxRecDepth 16384

noncomputable section

namespace Cert.Kernel.Hand

open Cert.Kernel Cert.Kernel.Gen
open Idealize.ShloMosaic Idealize.ShloMosaic.TcCoe Idealize.SL.Sem Idealize.ShloMosaic.StableHlo
open Idealize.ShloMosaic.Pipeline (Dat)

variable {F : FTy → Type} [FloatOps F]

variable (m : (ℓ : Loc nD τ sig) → Buf (Elt F) ℓ) (ρ : Dev nD → PrngReg)

/-- The region's exit contents on core c: the windows' arrays after the last point, every other buffer as the region
    found it. -/
abbrev exitV (c : Dev nD) : Valuation τ sig (Elt F) :=
  Pipeline.withArrays spec0 c (V0 m c) fun w => (dats m 0 c).arrAt w cfg0.N

/-- The region-entry contents of an argument are its launch contents. -/
theorem V_arg (c : Dev nD) (r : Ref sig .tc) (hr : r ∈ argRefs) : V m c r = m ((c : Thread nD τ).loc r) :=
  keeps_pre (fun b => m (c, b)) r hr

/-- An argument no window stages ends at its launch contents. -/
theorem rest_arg (c : Dev nD) (r : Ref sig .tc) (hr : r ∈ argRefs) (hne : ∀ w, Pipeline.arrRef spec0 w ≠ r) :
    Pipeline.afterTail₀ cfgs (dats m) 0 (V0 m) tailOps c r = m ((c : Thread nD τ).loc r) := by
  unfold Pipeline.afterTail₀
  rw [keeps_tail _ r hr]
  exact (Pipeline.withArrays_of_ne spec0 c (V0 m c) _ r hne).trans (V_arg m c r hr)

set_option maxHeartbeats 1000000 in
/-- The frame run's post read at the fifteen arguments and at the result. -/
theorem post_read (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v63) = after (List.flatten (tailOps (F := F))) (exitV m c) (Proc.devRef .tc main_v63)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) := by
  have hrest : ∀ (a : Ref sig .tc) (ha : a ∈ argRefs) (hs : a.isScoped = false) (hne : ∀ w, Pipeline.arrRef spec0 w ≠ a),
      r.2.mem ((c.tc : Thread nD τ).loc a) = m ((c.tc : Thread nD τ).loc a) := fun a ha hs hne =>
    ((h c).2 a (Pipeline.mem_restRefs_of a hs hne)).trans (rest_arg m c a ha hne)
  refine ⟨(h c).2 main_v63 (Pipeline.mem_restRefs_of main_v63 (by decide) (by decide)),
    hrest main_arg0 (by decide) (by decide) (by decide),
    ((h c).1 0).trans (((dats m 0 c).arrAt_in 0 rfl _).trans ((A_eq m c 0).trans (V_arg m c main_arg1 (by decide)))),
    ((h c).1 1).trans (((dats m 0 c).arrAt_in 1 rfl _).trans ((A_eq m c 1).trans (V_arg m c main_arg2 (by decide)))),
    hrest main_arg3 (by decide) (by decide) (by decide), hrest main_arg4 (by decide) (by decide) (by decide),
    hrest main_arg5 (by decide) (by decide) (by decide), hrest main_arg6 (by decide) (by decide) (by decide),
    hrest main_arg7 (by decide) (by decide) (by decide), hrest main_arg8 (by decide) (by decide) (by decide),
    hrest main_arg9 (by decide) (by decide) (by decide), hrest main_arg10 (by decide) (by decide) (by decide),
    hrest main_arg11 (by decide) (by decide) (by decide), hrest main_arg12 (by decide) (by decide) (by decide),
    hrest main_arg13 (by decide) (by decide) (by decide), hrest main_arg14 (by decide) (by decide) (by decide)⟩

/-- THE FRAME: every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (post_read m r h c).2) (run_main m ρ)

end Cert.Kernel.Hand

end
-- ==== Proof.KFrame.lean ====
/-
  The frame run of the program with the Gaussian-kernel pallas_call: @main is host operations, one pipeline region
  over a grid of 32 points (one batch row each), and host operations again. At point t the body loads the K and V
  blocks [1, 1024, 1024] and the mu and sigma columns [1, 1024, 1] of row t whole, also its own output buffer
  (a load whose value it drops), and stores one column [1, 1024, 1]: the named payload of the four input blocks.
  So after the body each input window's buffer holds its block, and the output window's the payload of the blocks;
  the invariant is the class's (nothing scoped is used), nothing is owed, every share is full.
  The run is the library's frame run around a region; its post names every window's array after the last point
  and every other buffer as the lines after the region leave it.
-/
import proofs.«138627_j71528385347626_2_alg».proof.Proof.Gen.KernelIdeal.Skeleton
import proofs.«138627_j71528385347626_2_alg».proof.Proof.Gen.KernelIdeal.Launch
import proofs.«138627_j71528385347626_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, -/
abbrev preOps : List (List (HloOp τ sig (Elt F))) := [hostOps0, hostOps0_1, hostOps0_2]
/-- and those after it. -/
abbrev tailOps : List (List (HloOp τ sig (Elt F))) := [hostOps1, hostOps1_1, hostOps1_2, hostOps1_3, hostOps1_4]

/-- Core c's buffer contents when the region is entered: the lines before it folded over the launch contents. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem pre_fresh : (preOps : List (List (HloOp τ sig (Elt F)))).Forall fun ops => ops.Forall fun op => op.fresh = ∅ := by
  simp only [List.Forall]; repeat' constructor

theorem pre_sub : (preOps : List (List (HloOp τ sig (Elt F)))).Forall fun ops => ops.Forall fun op => op.bufs ⊆ StableHlo.tcRefs τ sig :=
  ⟨hostOps0_sub, hostOps0_1_sub, hostOps0_2_sub⟩

/-- @main reduces to the region continued by the later lines, the buffers at V when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub pre_fresh main_chain

/-- The lines after the region touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : (tailOps : List (List (HloOp τ sig (Elt F)))).Forall fun ops => ops.Forall fun op => op.fresh = ∅ := by
  simp only [List.Forall]; repeat' constructor

/-- They allocate nothing. -/
theorem sfx_fresh : ∀ ops ∈ (tailOps : List (List (HloOp τ sig (Elt F)))), ∀ op ∈ ops, op.fresh = ∅ := fun ops hops op hop =>
  (List.forall_iff_forall_mem.mp ((List.forall_iff_forall_mem.mp tail_fresh) ops hops)) op hop

/-- Closes "this line writes no array of the pipeline" for each line of a stretch: a line writes its own result
    buffer only. -/
local macro "keeps_tac" : tactic => `(tactic| (
  simp only [List.Forall]
  repeat' constructor
  all_goals intro w; fin_cases w <;> simp only [StableHlo.nullary_writes, StableHlo.unary_writes, StableHlo.binary_writes, StableHlo.ternary_writes, StableHlo.reshape_writes, StableHlo.TRef.nullary, StableHlo.TRef.unary, StableHlo.TRef.binary, StableHlo.TRef.ternary, Finset.mem_singleton] <;> exact StableHlo.devRef_ne_of_ne (by decide)))

set_option maxHeartbeats 4000000 in
theorem keeps_1 : (hostOps1 : List (HloOp τ sig (Elt F))).Forall fun op => ∀ w, Proc.devRef .tc (Pipeline.arrRef spec0 w) ∉ op.writes := by keeps_tac
set_option maxHeartbeats 4000000 in
theorem keeps_2 : (hostOps1_1 : List (HloOp τ sig (Elt F))).Forall fun op => ∀ w, Proc.devRef .tc (Pipeline.arrRef spec0 w) ∉ op.writes := by keeps_tac
set_option maxHeartbeats 4000000 in
theorem keeps_3 : (hostOps1_2 : List (HloOp τ sig (Elt F))).Forall fun op => ∀ w, Proc.devRef .tc (Pipeline.arrRef spec0 w) ∉ op.writes := by keeps_tac
set_option maxHeartbeats 4000000 in
theorem keeps_4 : (hostOps1_3 : List (HloOp τ sig (Elt F))).Forall fun op => ∀ w, Proc.devRef .tc (Pipeline.arrRef spec0 w) ∉ op.writes := by keeps_tac
set_option maxHeartbeats 4000000 in
theorem keeps_5 : (hostOps1_4 : List (HloOp τ sig (Elt F))).Forall fun op => ∀ w, Proc.devRef .tc (Pipeline.arrRef spec0 w) ∉ op.writes := by keeps_tac

/-- Each line after the region writes its own result buffer, which is no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp keeps_1) op hop
  · exact (List.forall_iff_forall_mem.mp keeps_2) op hop
  · exact (List.forall_iff_forall_mem.mp keeps_3) op hop
  · exact (List.forall_iff_forall_mem.mp keeps_4) op hop
  · exact (List.forall_iff_forall_mem.mp keeps_5) op hop

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rK : Rect S1x1024x1024 := Rect.unit (s := S1x1024x1024) ![0, 0, 0] S1x1024x1024.size inb_S1x1024x1024_S1x1024x1024_0_0_0
abbrev rC : Rect S1x1024x1 := Rect.unit (s := S1x1024x1) ![0, 0, 0] S1x1024x1.size inb_S1x1024x1_S1x1024x1_0_0_0

/-- The output window's staging buffer after the body, from the input windows' blocks: its one store as a piece. -/
def out0_4 (x0 x1 : Vec F S1x1024x1024 .f32) (x2 x3 : Vec F S1x1024x1 .f32) : Vec F S1x1024x1 .f32 :=
  View.canon [⟨rC, k0_pay1 (View.ld x0 rK) (View.ld x1 rK) (View.ld x2 rC) (View.ld x3 rC)⟩]

/-- The store's rectangle is the whole buffer, so it covers it. -/
theorem cover0_4 (p0 : Vec F S1x1024x1 .f32) (y : S1x1024x1.Idx) :
    ∃ pc ∈ ([⟨rC, p0⟩] : List (View.Piece (Elt F) S1x1024x1 .f32)), y ∈ pc.1.set :=
  View.cover_of_tiled [⟨rC, p0⟩] S1x1024x1.size (by rfl) y

/-! ## The body's triple -/

set_option maxHeartbeats 1000000 in
/-- The kernel body on whole staging memrefs, the inputs' at read contents and the output's at anything, runs to the
    continuation holding the inputs' as they were and the output's at out0_4 of the inputs'. -/
theorem sound_kernel (c : Dev nD) (E : Set ℕ) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S1x1024x1 .f32) (harg5 : arg5.IsWhole)
    (x0 x1 : Vec F S1x1024x1024 .f32) (x2 x3 : Vec F S1x1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gaussian_kernel i arg1 harg1 arg2 harg2 arg3 harg3 arg4 harg4 arg5 harg5) K := by
  simp only [cc0__gaussian_kernel_eq_skeleton]; unfold cc0__gaussian_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core c: the arrays as the region finds them; after the body at point t each
    input's buffer at its block and the output's at out0_4 of the input blocks; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has every
    array of the pipeline at what the library computes from the proof data and every other unscoped buffer as the
    lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Hand

end
-- ==== Proof.KKeeps.lean ====
/-
  No host line of the program writes an argument array: each line writes its own result buffer, and that buffer is
  none of the fifteen arguments. So every argument reads the same before and after any stretch of the lines.
-/
import proofs.«138627_j71528385347626_2_alg».proof.Proof.KFrame

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The fifteen argument arrays. -/
abbrev argRefs : List (Ref sig .tc) :=
  [main_arg0, main_arg1, main_arg2, main_arg3, main_arg4, main_arg5, main_arg6, main_arg7, main_arg8, main_arg9,
   main_arg10, main_arg11, main_arg12, main_arg13, main_arg14]

/-- A line whose one result buffer is no argument writes no argument. -/
theorem not_write_of {y : Ref sig .tc} (hy : y ∉ argRefs) :
    ∀ r ∈ argRefs, Proc.devRef (τ := τ) .tc r ∉ ({Proc.devRef .tc y} : Finset (DevRef τ sig)) :=
  fun r hr h => hy (Proc.devRef_injective _ (Finset.mem_singleton.mp h) ▸ hr)

/-- Closes "no line of this stretch writes an argument". -/
local macro "wr_tac" : tactic => `(tactic| (
  simp only [List.Forall]
  repeat' constructor
  all_goals (simp only [StableHlo.nullary_writes, StableHlo.unary_writes, StableHlo.binary_writes, StableHlo.ternary_writes, StableHlo.reshape_writes, StableHlo.TRef.nullary, StableHlo.TRef.unary, StableHlo.TRef.binary, StableHlo.TRef.ternary]; exact not_write_of (by decide))))

set_option maxHeartbeats 4000000 in
theorem wr0 : (hostOps0 : List (HloOp τ sig (Elt F))).Forall fun op => ∀ r ∈ argRefs, Proc.devRef .tc r ∉ op.writes := by wr_tac
set_option maxHeartbeats 4000000 in
theorem wr0_1 : (hostOps0_1 : List (HloOp τ sig (Elt F))).Forall fun op => ∀ r ∈ argRefs, Proc.devRef .tc r ∉ op.writes := by wr_tac
set_option maxHeartbeats 4000000 in
theorem wr0_2 : (hostOps0_2 : List (HloOp τ sig (Elt F))).Forall fun op => ∀ r ∈ argRefs, Proc.devRef .tc r ∉ op.writes := by wr_tac
set_option maxHeartbeats 4000000 in
theorem wr1 : (hostOps1 : List (HloOp τ sig (Elt F))).Forall fun op => ∀ r ∈ argRefs, Proc.devRef .tc r ∉ op.writes := by wr_tac
set_option maxHeartbeats 4000000 in
theorem wr1_1 : (hostOps1_1 : List (HloOp τ sig (Elt F))).Forall fun op => ∀ r ∈ argRefs, Proc.devRef .tc r ∉ op.writes := by wr_tac
set_option maxHeartbeats 4000000 in
theorem wr1_2 : (hostOps1_2 : List (HloOp τ sig (Elt F))).Forall fun op => ∀ r ∈ argRefs, Proc.devRef .tc r ∉ op.writes := by wr_tac
set_option maxHeartbeats 4000000 in
theorem wr1_3 : (hostOps1_3 : List (HloOp τ sig (Elt F))).Forall fun op => ∀ r ∈ argRefs, Proc.devRef .tc r ∉ op.writes := by wr_tac
set_option maxHeartbeats 4000000 in
theorem wr1_4 : (hostOps1_4 : List (HloOp τ sig (Elt F))).Forall fun op => ∀ r ∈ argRefs, Proc.devRef .tc r ∉ op.writes := by wr_tac

/-- The lines before the region leave every argument as they found it. -/
theorem keeps_pre (W : Valuation τ sig (Elt F)) (r : Ref sig .tc) (hr : r ∈ argRefs) :
    after (List.flatten (preOps (F := F))) W (Proc.devRef .tc r) = W (Proc.devRef .tc r) :=
  after_of_forall_not_mem _ W fun op hop => by
    obtain ⟨ops, hops, hop'⟩ := List.mem_flatten.mp hop
    simp only [List.mem_cons, List.mem_nil_iff, or_false] at hops
    rcases hops with rfl | rfl | rfl
    · exact (List.forall_iff_forall_mem.mp wr0) op hop' r hr
    · exact (List.forall_iff_forall_mem.mp wr0_1) op hop' r hr
    · exact (List.forall_iff_forall_mem.mp wr0_2) op hop' r hr

/-- The lines after the region leave every argument as they found it. -/
theorem keeps_tail (W : Valuation τ sig (Elt F)) (r : Ref sig .tc) (hr : r ∈ argRefs) :
    after (List.flatten (tailOps (F := F))) W (Proc.devRef .tc r) = W (Proc.devRef .tc r) :=
  after_of_forall_not_mem _ W fun op hop => by
    obtain ⟨ops, hops, hop'⟩ := List.mem_flatten.mp hop
    simp only [List.mem_cons, List.mem_nil_iff, or_false] at hops
    rcases hops with rfl | rfl | rfl | rfl | rfl
    · exact (List.forall_iff_forall_mem.mp wr1) op hop' r hr
    · exact (List.forall_iff_forall_mem.mp wr1_1) op hop' r hr
    · exact (List.forall_iff_forall_mem.mp wr1_2) op hop' r hr
    · exact (List.forall_iff_forall_mem.mp wr1_3) op hop' r hr
    · exact (List.forall_iff_forall_mem.mp wr1_4) op hop' r hr

end Cert.KernelIdeal.Hand

end
-- ==== Proof.KPost.lean ====
/-
  What the frame run's final states say about the argument arrays and the result. K and V reach the kernel through
  input windows, and an input window's array ends as the region found it; every other argument is a buffer no
  window stages, which ends as the lines after the region leave it: untouched, as the lines before the region left
  it: untouched again. The result buffer ends at the fold of the lines after the region over the region's exit
  contents: the output window's array at what the grid wrote back, every other buffer as the region found it.
-/
import proofs.«138627_j71528385347626_2_alg».proof.Proof.KKeeps

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

variable (m : (ℓ : Loc nD τ sig) → Buf (Elt F) ℓ) (ρ : Dev nD → PrngReg)

/-- The region's exit contents on core c: the windows' arrays after the last point, every other buffer as the region
    found it. -/
abbrev exitV (c : Dev nD) : Valuation τ sig (Elt F) :=
  Pipeline.withArrays spec0 c (V0 m c) fun w => (dats m 0 c).arrAt w cfg0.N

/-- The region-entry contents of an argument are its launch contents. -/
theorem V_arg (c : Dev nD) (r : Ref sig .tc) (hr : r ∈ argRefs) : V m c r = m ((c : Thread nD τ).loc r) :=
  keeps_pre (fun b => m (c, b)) r hr

/-- An argument no window stages ends at its launch contents. -/
theorem rest_arg (c : Dev nD) (r : Ref sig .tc) (hr : r ∈ argRefs) (hne : ∀ w, Pipeline.arrRef spec0 w ≠ r) :
    Pipeline.afterTail₀ cfgs (dats m) 0 (V0 m) tailOps c r = m ((c : Thread nD τ).loc r) := by
  unfold Pipeline.afterTail₀
  rw [keeps_tail _ r hr]
  exact (Pipeline.withArrays_of_ne spec0 c (V0 m c) _ r hne).trans (V_arg m c r hr)

set_option maxHeartbeats 1000000 in
/-- The frame run's post read at the fifteen arguments and at the result. -/
theorem post_read (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v63) = after (List.flatten (tailOps (F := F))) (exitV m c) (Proc.devRef .tc main_v63)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) := by
  have hrest : ∀ (a : Ref sig .tc) (ha : a ∈ argRefs) (hs : a.isScoped = false) (hne : ∀ w, Pipeline.arrRef spec0 w ≠ a),
      r.2.mem ((c.tc : Thread nD τ).loc a) = m ((c.tc : Thread nD τ).loc a) := fun a ha hs hne =>
    ((h c).2 a (Pipeline.mem_restRefs_of a hs hne)).trans (rest_arg m c a ha hne)
  refine ⟨(h c).2 main_v63 (Pipeline.mem_restRefs_of main_v63 (by decide) (by decide)),
    hrest main_arg0 (by decide) (by decide) (by decide),
    ((h c).1 0).trans (((dats m 0 c).arrAt_in 0 rfl _).trans ((A_eq m c 0).trans (V_arg m c main_arg1 (by decide)))),
    ((h c).1 1).trans (((dats m 0 c).arrAt_in 1 rfl _).trans ((A_eq m c 1).trans (V_arg m c main_arg2 (by decide)))),
    hrest main_arg3 (by decide) (by decide) (by decide), hrest main_arg4 (by decide) (by decide) (by decide),
    hrest main_arg5 (by decide) (by decide) (by decide), hrest main_arg6 (by decide) (by decide) (by decide),
    hrest main_arg7 (by decide) (by decide) (by decide), hrest main_arg8 (by decide) (by decide) (by decide),
    hrest main_arg9 (by decide) (by decide) (by decide), hrest main_arg10 (by decide) (by decide) (by decide),
    hrest main_arg11 (by decide) (by decide) (by decide), hrest main_arg12 (by decide) (by decide) (by decide),
    hrest main_arg13 (by decide) (by decide) (by decide), hrest main_arg14 (by decide) (by decide) (by decide)⟩

/-- THE FRAME: every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (post_read m r h c).2) (run_main m ρ)

end Cert.KernelIdeal.Hand

end
-- ==== Proof.RefOps.lean ====
/- The printed reference's @main as three lists of its host operations, in order; a line of an outlined
   function stands at its call site over that call's buffer record. Nothing here is proved. -/
import proofs.«138627_j71528385347626_2_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- 57 operations: from the arguments to the two rank-three operands mu and sigma. -/
abbrev preR : List (HloOp τ sig (Elt F)) :=
  [ StableHlo.nullary main_cst (constant S_ .f32 0x00000000#32),
    StableHlo.binary main_arg0 main_cst main_v0 ((fun x v => Host.reduceAdd x v reducesTo_S32x1024_S32_d1 h_S_) : (⟨S32x1024, .f32⟩ : BufTy).Contents (Elt F) → (⟨S_, .f32⟩ : BufTy).Contents (Elt F) → (⟨S32, .f32⟩ : BufTy).Contents (Elt F)),
    StableHlo.unary main_v0 main_v1 (broadcastInDim S32x1 ![0] bcast_S32_S32x1_0 : (⟨S32, .f32⟩ : BufTy).Contents (Elt F) → (⟨S32x1, .f32⟩ : BufTy).Contents (Elt F)),
    StableHlo.nullary main_cst_0 (constant S_ .f32 0x44800000#32),
    StableHlo.unary main_cst_0 main_v2 (broadcastInDim S32x1 ![] bcast_S_S32x1 : (⟨S_, .f32⟩ : BufTy).Contents (Elt F) → (⟨S32x1, .f32⟩ : BufTy).Contents (Elt F)),
    StableHlo.binary main_v1 main_v2 main_v3 (Host.divf : (⟨S32x1, .f32⟩ : BufTy).Contents (Elt F) → (⟨S32x1, .f32⟩ : BufTy).Contents (Elt F) → (⟨S32x1, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S32x1024_S32_d1 h_S_),
    StableHlo.TRef.unary main_call0.v0 main_call0.v1 (broadcastInDim S32x1 ![0] bcast_S32_S32x1_0),
    StableHlo.TRef.nullary main_call0.cst_0 (constant S_ .f32 0x44800000#32),
    StableHlo.TRef.unary main_call0.cst_0 main_call0.v2 (broadcastInDim S32x1 ![] bcast_S_S32x1),
    StableHlo.TRef.binary main_call0.v1 main_call0.v2 main_call0.v3 Host.divf,
    StableHlo.TRef.unary main_call0.v3 main_call0.v4 (broadcastInDim S32x1024 ![0, 1] bcast_S32x1_S32x1024_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x1024_S32_d1 h_S_),
    StableHlo.TRef.unary main_call0.v9 main_call0.v10 (broadcastInDim S32x1 ![0] bcast_S32_S32x1_0),
    StableHlo.TRef.unary main_call0.v8 main_call0.v11 (broadcastInDim S32x1 ![] bcast_S_S32x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x1 ![] bcast_S_S32x1),
    StableHlo.TRef.ternary main_call0.v13 main_call0.v12 main_call0.call0.v1 main_call0.call0.v2 (fun p a b => select (broadcastInDim S32x1 ![] bcast_S_S32x1 p) a b),
    StableHlo.unary main_v3 main_v5 (broadcastInDim S32x1024 ![0, 1] bcast_S32x1_S32x1024_0_1 : (⟨S32x1, .f32⟩ : BufTy).Contents (Elt F) → (⟨S32x1024, .f32⟩ : BufTy).Contents (Elt F)),
    StableHlo.binary main_arg0 main_v5 main_v6 (subf : (⟨S32x1024, .f32⟩ : BufTy).Contents (Elt F) → (⟨S32x1024, .f32⟩ : BufTy).Contents (Elt F) → (⟨S32x1024, .f32⟩ : BufTy).Contents (Elt F)),
    StableHlo.nullary main_cst_1 (constant S_ .f32 0x3727C5AC#32),
    StableHlo.unary main_cst_1 main_v7 (broadcastInDim S32x1 ![] bcast_S_S32x1 : (⟨S_, .f32⟩ : BufTy).Contents (Elt F) → (⟨S32x1, .f32⟩ : BufTy).Contents (Elt F)),
    StableHlo.binary main_v4 main_v7 main_v8 (addf : (⟨S32x1, .f32⟩ : BufTy).Contents (Elt F) → (⟨S32x1, .f32⟩ : BufTy).Contents (Elt F) → (⟨S32x1, .f32⟩ : BufTy).Contents (Elt F)),
    StableHlo.unary main_v8 main_v9 (Host.rsqrt : (⟨S32x1, .f32⟩ : BufTy).Contents (Elt F) → (⟨S32x1, .f32⟩ : BufTy).Contents (Elt F)),
    StableHlo.unary main_v9 main_v10 (broadcastInDim S32x1024 ![0, 1] bcast_S32x1_S32x1024_0_1 : (⟨S32x1, .f32⟩ : BufTy).Contents (Elt F) → (⟨S32x1024, .f32⟩ : BufTy).Contents (Elt F)),
    StableHlo.binary main_v6 main_v10 main_v11 (mulf : (⟨S32x1024, .f32⟩ : BufTy).Contents (Elt F) → (⟨S32x1024, .f32⟩ : BufTy).Contents (Elt F) → (⟨S32x1024, .f32⟩ : BufTy).Contents (Elt F)),
    StableHlo.unary main_arg13 main_v12 (broadcastInDim S1x1024 ![1] bcast_S1024_S1x1024_1 : (⟨S1024, .f32⟩ : BufTy).Contents (Elt F) → (⟨S1x1024, .f32⟩ : BufTy).Contents (Elt F)),
    StableHlo.unary main_v12 main_v13 (broadcastInDim S32x1024 ![0, 1] bcast_S1x1024_S32x1024_0_1 : (⟨S1x1024, .f32⟩ : BufTy).Contents (Elt F) → (⟨S32x1024, .f32⟩ : BufTy).Contents (Elt F)),
    StableHlo.binary main_v11 main_v13 main_v14 (mulf : (⟨S32x1024, .f32⟩ : BufTy).Contents (Elt F) → (⟨S32x1024, .f32⟩ : BufTy).Contents (Elt F) → (⟨S32x1024, .f32⟩ : BufTy).Contents (Elt F)),
    StableHlo.unary main_arg14 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S32x1024 ![0, 1] bcast_S1x1024_S32x1024_0_1 : (⟨S1x1024, .f32⟩ : BufTy).Contents (Elt F) → (⟨S32x1024, .f32⟩ : BufTy).Contents (Elt F)),
    StableHlo.binary main_v14 main_v16 main_v17 (addf : (⟨S32x1024, .f32⟩ : BufTy).Contents (Elt F) → (⟨S32x1024, .f32⟩ : BufTy).Contents (Elt F) → (⟨S32x1024, .f32⟩ : BufTy).Contents (Elt F)),
    StableHlo.unary main_arg3 main_v18 ((transpose S1024x1024 [1, 0] · transposes_S1024x1024_S1024x1024_1_0) : (⟨S1024x1024, .f32⟩ : BufTy).Contents (Elt F) → (⟨S1024x1024, .f32⟩ : BufTy).Contents (Elt F)),
    StableHlo.binary main_v17 main_v18 main_v19 ((fun l r => Host.dotGeneral dot_S32x1024_S1024x1024_S32x1024_1_0_0_1_n_n none l r) : (⟨S32x1024, .f32⟩ : BufTy).Contents (Elt F) → (⟨S1024x1024, .f32⟩ : BufTy).Contents (Elt F) → (⟨S32x1024, .f32⟩ : BufTy).Contents (Elt F)),
    StableHlo.unary main_arg4 main_v20 (broadcastInDim S1x1024 ![1] bcast_S1024_S1x1024_1 : (⟨S1024, .f32⟩ : BufTy).Contents (Elt F) → (⟨S1x1024, .f32⟩ : BufTy).Contents (Elt F)),
    StableHlo.unary main_v20 main_v21 (broadcastInDim S32x1024 ![0, 1] bcast_S1x1024_S32x1024_0_1 : (⟨S1x1024, .f32⟩ : BufTy).Contents (Elt F) → (⟨S32x1024, .f32⟩ : BufTy).Contents (Elt F)),
    StableHlo.binary main_v19 main_v21 main_v22 (addf : (⟨S32x1024, .f32⟩ : BufTy).Contents (Elt F) → (⟨S32x1024, .f32⟩ : BufTy).Contents (Elt F) → (⟨S32x1024, .f32⟩ : BufTy).Contents (Elt F)),
    StableHlo.unary main_v22 main_v23 (Host.tanh : (⟨S32x1024, .f32⟩ : BufTy).Contents (Elt F) → (⟨S32x1024, .f32⟩ : BufTy).Contents (Elt F)),
    StableHlo.unary main_v23 main_v24 (broadcastInDim S32x1024x1 ![0, 1] bcast_S32x1024_S32x1024x1_0_1 : (⟨S32x1024, .f32⟩ : BufTy).Contents (Elt F) → (⟨S32x1024x1, .f32⟩ : BufTy).Contents (Elt F)),
    StableHlo.unary main_arg5 main_v25 ((transpose S1024x1024 [1, 0] · transposes_S1024x1024_S1024x1024_1_0) : (⟨S1024x1024, .f32⟩ : BufTy).Contents (Elt F) → (⟨S1024x1024, .f32⟩ : BufTy).Contents (Elt F)),
    StableHlo.binary main_v17 main_v25 main_v26 ((fun l r => Host.dotGeneral dot_S32x1024_S1024x1024_S32x1024_1_0_0_1_n_n none l r) : (⟨S32x1024, .f32⟩ : BufTy).Contents (Elt F) → (⟨S1024x1024, .f32⟩ : BufTy).Contents (Elt F) → (⟨S32x1024, .f32⟩ : BufTy).Contents (Elt F)),
    StableHlo.unary main_arg6 main_v27 (broadcastInDim S1x1024 ![1] bcast_S1024_S1x1024_1 : (⟨S1024, .f32⟩ : BufTy).Contents (Elt F) → (⟨S1x1024, .f32⟩ : BufTy).Contents (Elt F)),
    StableHlo.unary main_v27 main_v28 (broadcastInDim S32x1024 ![0, 1] bcast_S1x1024_S32x1024_0_1 : (⟨S1x1024, .f32⟩ : BufTy).Contents (Elt F) → (⟨S32x1024, .f32⟩ : BufTy).Contents (Elt F)),
    StableHlo.binary main_v26 main_v28 main_v29 (addf : (⟨S32x1024, .f32⟩ : BufTy).Contents (Elt F) → (⟨S32x1024, .f32⟩ : BufTy).Contents (Elt F) → (⟨S32x1024, .f32⟩ : BufTy).Contents (Elt F)),
    StableHlo.unary main_v29 main_v30 (broadcastInDim S32x1024x1 ![0, 1] bcast_S32x1024_S32x1024x1_0_1 : (⟨S32x1024, .f32⟩ : BufTy).Contents (Elt F) → (⟨S32x1024x1, .f32⟩ : BufTy).Contents (Elt F)) ]

/-- 16 operations: the Gaussian pseudo-attention: broadcast over the last axis, exponential, product with V, sum over the last axis. -/
abbrev midR : List (HloOp τ sig (Elt F)) :=
  [ StableHlo.unary main_v24 main_v31 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    StableHlo.binary main_arg1 main_v31 main_v32 (subf : (⟨S32x1024x1024, .f32⟩ : BufTy).Contents (Elt F) → (⟨S32x1024x1024, .f32⟩ : BufTy).Contents (Elt F) → (⟨S32x1024x1024, .f32⟩ : BufTy).Contents (Elt F)),
    StableHlo.binary main_v32 main_v32 main_v33 (mulf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_2 (constant S_ .f32 0xBF000000#32),
    StableHlo.unary main_cst_2 main_v34 (broadcastInDim S32x1024x1024 ![] bcast_S_S32x1024x1024 : (⟨S_, .f32⟩ : BufTy).Contents (Elt F) → (⟨S32x1024x1024, .f32⟩ : BufTy).Contents (Elt F)),
    StableHlo.binary main_v34 main_v33 main_v35 (mulf : (⟨S32x1024x1024, .f32⟩ : BufTy).Contents (Elt F) → (⟨S32x1024x1024, .f32⟩ : BufTy).Contents (Elt F) → (⟨S32x1024x1024, .f32⟩ : BufTy).Contents (Elt F)),
    StableHlo.binary main_v30 main_v30 main_v36 (mulf : (⟨S32x1024x1, .f32⟩ : BufTy).Contents (Elt F) → (⟨S32x1024x1, .f32⟩ : BufTy).Contents (Elt F) → (⟨S32x1024x1, .f32⟩ : BufTy).Contents (Elt F)),
    StableHlo.nullary main_cst_3 (constant S_ .f32 0x322BCC77#32),
    StableHlo.unary main_cst_3 main_v37 (broadcastInDim S32x1024x1 ![] bcast_S_S32x1024x1 : (⟨S_, .f32⟩ : BufTy).Contents (Elt F) → (⟨S32x1024x1, .f32⟩ : BufTy).Contents (Elt F)),
    StableHlo.binary main_v36 main_v37 main_v38 (addf : (⟨S32x1024x1, .f32⟩ : BufTy).Contents (Elt F) → (⟨S32x1024x1, .f32⟩ : BufTy).Contents (Elt F) → (⟨S32x1024x1, .f32⟩ : BufTy).Contents (Elt F)),
    StableHlo.unary main_v38 main_v39 (broadcastInDim S32x1024x1024 ![0, 1, 2] bcast_S32x1024x1_S32x1024x1024_0_1_2 : (⟨S32x1024x1, .f32⟩ : BufTy).Contents (Elt F) → (⟨S32x1024x1024, .f32⟩ : BufTy).Contents (Elt F)),
    StableHlo.binary main_v35 main_v39 main_v40 (Host.divf : (⟨S32x1024x1024, .f32⟩ : BufTy).Contents (Elt F) → (⟨S32x1024x1024, .f32⟩ : BufTy).Contents (Elt F) → (⟨S32x1024x1024, .f32⟩ : BufTy).Contents (Elt F)),
    StableHlo.unary main_v40 main_v41 (Host.exp : (⟨S32x1024x1024, .f32⟩ : BufTy).Contents (Elt F) → (⟨S32x1024x1024, .f32⟩ : BufTy).Contents (Elt F)),
    StableHlo.binary main_v41 main_arg2 main_v42 (mulf : (⟨S32x1024x1024, .f32⟩ : BufTy).Contents (Elt F) → (⟨S32x1024x1024, .f32⟩ : BufTy).Contents (Elt F) → (⟨S32x1024x1024, .f32⟩ : BufTy).Contents (Elt F)),
    StableHlo.nullary main_cst_4 (constant S_ .f32 0x00000000#32),
    StableHlo.binary main_v42 main_cst_4 main_v43 ((fun x v => Host.reduceAdd x v reducesTo_S32x1024x1024_S32x1024_d2 h_S_) : (⟨S32x1024x1024, .f32⟩ : BufTy).Contents (Elt F) → (⟨S_, .f32⟩ : BufTy).Contents (Elt F) → (⟨S32x1024, .f32⟩ : BufTy).Contents (Elt F)) ]

/-- 65 operations: from the attention rows to the result. -/
abbrev tailR : List (HloOp τ sig (Elt F)) :=
  [ StableHlo.binary main_v43 main_arg0 main_v44 (addf : (⟨S32x1024, .f32⟩ : BufTy).Contents (Elt F) → (⟨S32x1024, .f32⟩ : BufTy).Contents (Elt F) → (⟨S32x1024, .f32⟩ : BufTy).Contents (Elt F)),
    StableHlo.nullary main_cst_5 (constant S_ .f32 0x00000000#32),
    StableHlo.binary main_v44 main_cst_5 main_v45 ((fun x v => Host.reduceAdd x v reducesTo_S32x1024_S32_d1 h_S_) : (⟨S32x1024, .f32⟩ : BufTy).Contents (Elt F) → (⟨S_, .f32⟩ : BufTy).Contents (Elt F) → (⟨S32, .f32⟩ : BufTy).Contents (Elt F)),
    StableHlo.unary main_v45 main_v46 (broadcastInDim S32x1 ![0] bcast_S32_S32x1_0 : (⟨S32, .f32⟩ : BufTy).Contents (Elt F) → (⟨S32x1, .f32⟩ : BufTy).Contents (Elt F)),
    StableHlo.nullary main_cst_6 (constant S_ .f32 0x44800000#32),
    StableHlo.unary main_cst_6 main_v47 (broadcastInDim S32x1 ![] bcast_S_S32x1 : (⟨S_, .f32⟩ : BufTy).Contents (Elt F) → (⟨S32x1, .f32⟩ : BufTy).Contents (Elt F)),
    StableHlo.binary main_v46 main_v47 main_v48 (Host.divf : (⟨S32x1, .f32⟩ : BufTy).Contents (Elt F) → (⟨S32x1, .f32⟩ : BufTy).Contents (Elt F) → (⟨S32x1, .f32⟩ : BufTy).Contents (Elt F)),
    StableHlo.nullary main_c_7 (constantI S_ 32 0#32),
    StableHlo.TRef.nullary main_call1.cst (constant S_ .f32 0x00000000#32),
    StableHlo.TRef.binary (.of main_v44) main_call1.cst main_call1.v0 (fun x v => Host.reduceAdd x v reducesTo_S32x1024_S32_d1 h_S_),
    StableHlo.TRef.unary main_call1.v0 main_call1.v1 (broadcastInDim S32x1 ![0] bcast_S32_S32x1_0),
    StableHlo.TRef.nullary main_call1.cst_0 (constant S_ .f32 0x44800000#32),
    StableHlo.TRef.unary main_call1.cst_0 main_call1.v2 (broadcastInDim S32x1 ![] bcast_S_S32x1),
    StableHlo.TRef.binary main_call1.v1 main_call1.v2 main_call1.v3 Host.divf,
    StableHlo.TRef.unary main_call1.v3 main_call1.v4 (broadcastInDim S32x1024 ![0, 1] bcast_S32x1_S32x1024_0_1),
    StableHlo.TRef.binary (.of main_v44) main_call1.v4 main_call1.v5 subf,
    StableHlo.TRef.binary main_call1.v5 main_call1.v5 main_call1.v6 mulf,
    StableHlo.TRef.unary (.of main_c_7) main_call1.v7 (sitofp .f32),
    StableHlo.TRef.nullary main_call1.cst_1 (constant S_ .f32 0x44800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32x1024_S32_d1 h_S_),
    StableHlo.TRef.unary main_call1.v9 main_call1.v10 (broadcastInDim S32x1 ![0] bcast_S32_S32x1_0),
    StableHlo.TRef.unary main_call1.v8 main_call1.v11 (broadcastInDim S32x1 ![] bcast_S_S32x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32x1 ![] bcast_S_S32x1),
    StableHlo.TRef.ternary main_call1.v13 main_call1.v12 main_call1.call0.v1 main_call1.call0.v2 (fun p a b => select (broadcastInDim S32x1 ![] bcast_S_S32x1 p) a b),
    StableHlo.unary main_v48 main_v50 (broadcastInDim S32x1024 ![0, 1] bcast_S32x1_S32x1024_0_1 : (⟨S32x1, .f32⟩ : BufTy).Contents (Elt F) → (⟨S32x1024, .f32⟩ : BufTy).Contents (Elt F)),
    StableHlo.binary main_v44 main_v50 main_v51 (subf : (⟨S32x1024, .f32⟩ : BufTy).Contents (Elt F) → (⟨S32x1024, .f32⟩ : BufTy).Contents (Elt F) → (⟨S32x1024, .f32⟩ : BufTy).Contents (Elt F)),
    StableHlo.nullary main_cst_8 (constant S_ .f32 0x3727C5AC#32),
    StableHlo.unary main_cst_8 main_v52 (broadcastInDim S32x1 ![] bcast_S_S32x1 : (⟨S_, .f32⟩ : BufTy).Contents (Elt F) → (⟨S32x1, .f32⟩ : BufTy).Contents (Elt F)),
    StableHlo.binary main_v49 main_v52 main_v53 (addf : (⟨S32x1, .f32⟩ : BufTy).Contents (Elt F) → (⟨S32x1, .f32⟩ : BufTy).Contents (Elt F) → (⟨S32x1, .f32⟩ : BufTy).Contents (Elt F)),
    StableHlo.unary main_v53 main_v54 (Host.rsqrt : (⟨S32x1, .f32⟩ : BufTy).Contents (Elt F) → (⟨S32x1, .f32⟩ : BufTy).Contents (Elt F)),
    StableHlo.unary main_v54 main_v55 (broadcastInDim S32x1024 ![0, 1] bcast_S32x1_S32x1024_0_1 : (⟨S32x1, .f32⟩ : BufTy).Contents (Elt F) → (⟨S32x1024, .f32⟩ : BufTy).Contents (Elt F)),
    StableHlo.binary main_v51 main_v55 main_v56 (mulf : (⟨S32x1024, .f32⟩ : BufTy).Contents (Elt F) → (⟨S32x1024, .f32⟩ : BufTy).Contents (Elt F) → (⟨S32x1024, .f32⟩ : BufTy).Contents (Elt F)),
    StableHlo.unary main_arg11 main_v57 (broadcastInDim S1x1024 ![1] bcast_S1024_S1x1024_1 : (⟨S1024, .f32⟩ : BufTy).Contents (Elt F) → (⟨S1x1024, .f32⟩ : BufTy).Contents (Elt F)),
    StableHlo.unary main_v57 main_v58 (broadcastInDim S32x1024 ![0, 1] bcast_S1x1024_S32x1024_0_1 : (⟨S1x1024, .f32⟩ : BufTy).Contents (Elt F) → (⟨S32x1024, .f32⟩ : BufTy).Contents (Elt F)),
    StableHlo.binary main_v56 main_v58 main_v59 (mulf : (⟨S32x1024, .f32⟩ : BufTy).Contents (Elt F) → (⟨S32x1024, .f32⟩ : BufTy).Contents (Elt F) → (⟨S32x1024, .f32⟩ : BufTy).Contents (Elt F)),
    StableHlo.unary main_arg12 main_v60 (broadcastInDim S1x1024 ![1] bcast_S1024_S1x1024_1 : (⟨S1024, .f32⟩ : BufTy).Contents (Elt F) → (⟨S1x1024, .f32⟩ : BufTy).Contents (Elt F)),
    StableHlo.unary main_v60 main_v61 (broadcastInDim S32x1024 ![0, 1] bcast_S1x1024_S32x1024_0_1 : (⟨S1x1024, .f32⟩ : BufTy).Contents (Elt F) → (⟨S32x1024, .f32⟩ : BufTy).Contents (Elt F)),
    StableHlo.binary main_v59 main_v61 main_v62 (addf : (⟨S32x1024, .f32⟩ : BufTy).Contents (Elt F) → (⟨S32x1024, .f32⟩ : BufTy).Contents (Elt F) → (⟨S32x1024, .f32⟩ : BufTy).Contents (Elt F)),
    StableHlo.unary main_arg7 main_v63 ((transpose S1024x4096 [1, 0] · transposes_S4096x1024_S1024x4096_1_0) : (⟨S4096x1024, .f32⟩ : BufTy).Contents (Elt F) → (⟨S1024x4096, .f32⟩ : BufTy).Contents (Elt F)),
    StableHlo.binary main_v62 main_v63 main_v64 ((fun l r => Host.dotGeneral dot_S32x1024_S1024x4096_S32x4096_1_0_0_1_n_n none l r) : (⟨S32x1024, .f32⟩ : BufTy).Contents (Elt F) → (⟨S1024x4096, .f32⟩ : BufTy).Contents (Elt F) → (⟨S32x4096, .f32⟩ : BufTy).Contents (Elt F)),
    StableHlo.unary main_arg8 main_v65 (broadcastInDim S1x4096 ![1] bcast_S4096_S1x4096_1 : (⟨S4096, .f32⟩ : BufTy).Contents (Elt F) → (⟨S1x4096, .f32⟩ : BufTy).Contents (Elt F)),
    StableHlo.unary main_v65 main_v66 (broadcastInDim S32x4096 ![0, 1] bcast_S1x4096_S32x4096_0_1 : (⟨S1x4096, .f32⟩ : BufTy).Contents (Elt F) → (⟨S32x4096, .f32⟩ : BufTy).Contents (Elt F)),
    StableHlo.binary main_v64 main_v66 main_v67 (addf : (⟨S32x4096, .f32⟩ : BufTy).Contents (Elt F) → (⟨S32x4096, .f32⟩ : BufTy).Contents (Elt F) → (⟨S32x4096, .f32⟩ : BufTy).Contents (Elt F)),
    StableHlo.TRef.unary (.of main_v67) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S32x4096 ![] bcast_S_S32x4096),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S32x4096 ![] bcast_S_S32x4096),
    StableHlo.TRef.binary main_call2.v4 main_call2.v3 main_call2.v5 Host.divf,
    StableHlo.TRef.binary (.of main_v67) main_call2.v5 main_call2.v6 mulf,
    StableHlo.unary main_arg9 main_v69 ((transpose S4096x1024 [1, 0] · transposes_S1024x4096_S4096x1024_1_0) : (⟨S1024x4096, .f32⟩ : BufTy).Contents (Elt F) → (⟨S4096x1024, .f32⟩ : BufTy).Contents (Elt F)),
    StableHlo.binary main_v68 main_v69 main_v70 ((fun l r => Host.dotGeneral dot_S32x4096_S4096x1024_S32x1024_1_0_0_1_n_n none l r) : (⟨S32x4096, .f32⟩ : BufTy).Contents (Elt F) → (⟨S4096x1024, .f32⟩ : BufTy).Contents (Elt F) → (⟨S32x1024, .f32⟩ : BufTy).Contents (Elt F)),
    StableHlo.unary main_arg10 main_v71 (broadcastInDim S1x1024 ![1] bcast_S1024_S1x1024_1 : (⟨S1024, .f32⟩ : BufTy).Contents (Elt F) → (⟨S1x1024, .f32⟩ : BufTy).Contents (Elt F)),
    StableHlo.unary main_v71 main_v72 (broadcastInDim S32x1024 ![0, 1] bcast_S1x1024_S32x1024_0_1 : (⟨S1x1024, .f32⟩ : BufTy).Contents (Elt F) → (⟨S32x1024, .f32⟩ : BufTy).Contents (Elt F)),
    StableHlo.binary main_v70 main_v72 main_v73 (addf : (⟨S32x1024, .f32⟩ : BufTy).Contents (Elt F) → (⟨S32x1024, .f32⟩ : BufTy).Contents (Elt F) → (⟨S32x1024, .f32⟩ : BufTy).Contents (Elt F)),
    StableHlo.binary main_v44 main_v73 main_v74 (addf : (⟨S32x1024, .f32⟩ : BufTy).Contents (Elt F) → (⟨S32x1024, .f32⟩ : BufTy).Contents (Elt F) → (⟨S32x1024, .f32⟩ : BufTy).Contents (Elt F)) ]

end Cert.ReferenceIdeal.Hand

end
-- ==== Proof.RefRun.lean ====
/-
  The reference's run, read back: its @main is the straight line of its host operations (the outlined
  functions' lines standing at their call sites), so every weakly fair execution ends with each buffer at
  the operations' fold over the launch contents.
-/
import proofs.«138627_j71528385347626_2_alg».proof.Proof.RefOps
import proofs.«138627_j71528385347626_2_alg».proof.Proof.Gen.ReferenceIdeal

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]

/-- All of @main's operations, in order: the prelude, the pseudo-attention, the tail. -/
abbrev ops : List (HloOp τ sig (Elt F)) := preR ++ (midR ++ tailR)

set_option maxRecDepth 8192 in
set_option maxHeartbeats 4000000 in
/-- @main is that straight line: the outlined functions unfolded at their calls, sequencing reassociated. -/
theorem main_eq (c : Dev nD) : main (F := F) c = seq ops := by
  simp only [main, main_part0, main_part1, fn_var.body, fn_var_0.body, fn_where.body, fn_silu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Closes "this operation touches TensorCore buffers only" for each operation of a list. -/
local macro "ops_sub_tac" : tactic => `(tactic| (
  simp only [List.Forall]
  repeat' constructor
  all_goals first
    | exact nullary_bufs_sub ..
    | exact unary_bufs_sub ..
    | exact binary_bufs_sub ..
    | exact ternary_bufs_sub ..
    | exact reshape_bufs_sub ..))

set_option maxHeartbeats 2000000 in
theorem preR_sub : (preR : List (HloOp τ sig (Elt F))).Forall fun op => op.bufs ⊆ tcRefs τ sig := by ops_sub_tac
set_option maxHeartbeats 2000000 in
theorem midR_sub : (midR : List (HloOp τ sig (Elt F))).Forall fun op => op.bufs ⊆ tcRefs τ sig := by ops_sub_tac
set_option maxHeartbeats 2000000 in
theorem tailR_sub : (tailR : List (HloOp τ sig (Elt F))).Forall fun op => op.bufs ⊆ tcRefs τ sig := by ops_sub_tac

/-- Every operation touches TensorCore buffers only. -/
theorem ops_sub : (ops : List (HloOp τ sig (Elt F))).Forall fun op => op.bufs ⊆ tcRefs τ sig := by
  rw [List.forall_iff_forall_mem]
  intro op hop
  rcases List.mem_append.mp hop with h | h
  · exact (List.forall_iff_forall_mem.mp preR_sub) op h
  · rcases List.mem_append.mp h with h | h
    · exact (List.forall_iff_forall_mem.mp midR_sub) op h
    · exact (List.forall_iff_forall_mem.mp tailR_sub) op h

/-- On every device, from any memory with zero counters: every weakly fair execution of @main terminates, and
    every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RKeeps.lean ====
/-
  No host line of the reference writes an argument array: each line writes its own result buffer, and that buffer
  is none of the fifteen arguments. So every argument reads the same before and after any stretch of the lines.
-/
import proofs.«138627_j71528385347626_2_alg».proof.Proof.RefRun
import Idealize.ShloMosaic.Lib.Pipeline.Frame

set_option maxRecDepth 16384

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- The fifteen argument arrays. -/
abbrev argRefs : List (Ref sig .tc) :=
  [main_arg0, main_arg1, main_arg2, main_arg3, main_arg4, main_arg5, main_arg6, main_arg7, main_arg8, main_arg9,
   main_arg10, main_arg11, main_arg12, main_arg13, main_arg14]

/-- A line whose one result buffer is no argument writes no argument. -/
theorem not_write_of {y : Ref sig .tc} (hy : y ∉ argRefs) :
    ∀ r ∈ argRefs, Proc.devRef (τ := τ) .tc r ∉ ({Proc.devRef .tc y} : Finset (DevRef τ sig)) :=
  fun r hr h => hy (Proc.devRef_injective _ (Finset.mem_singleton.mp h) ▸ hr)

/-- Closes "no line of this stretch writes an argument". -/
local macro "wr_tac" : tactic => `(tactic| (
  simp only [List.Forall]
  repeat' constructor
  all_goals (simp only [StableHlo.nullary_writes, StableHlo.unary_writes, StableHlo.binary_writes, StableHlo.ternary_writes, StableHlo.reshape_writes, StableHlo.TRef.nullary, StableHlo.TRef.unary, StableHlo.TRef.binary, StableHlo.TRef.ternary]; exact not_write_of (by decide))))

set_option maxHeartbeats 8000000 in
theorem wr_pre : (preR : List (HloOp τ sig (Elt F))).Forall fun op => ∀ r ∈ argRefs, Proc.devRef .tc r ∉ op.writes := by wr_tac
set_option maxHeartbeats 8000000 in
theorem wr_mid : (midR : List (HloOp τ sig (Elt F))).Forall fun op => ∀ r ∈ argRefs, Proc.devRef .tc r ∉ op.writes := by wr_tac
set_option maxHeartbeats 8000000 in
theorem wr_tail : (tailR : List (HloOp τ sig (Elt F))).Forall fun op => ∀ r ∈ argRefs, Proc.devRef .tc r ∉ op.writes := by wr_tac

/-- Each stretch leaves every argument as it found it. -/
theorem keeps_pre (W : Valuation τ sig (Elt F)) (r : Ref sig .tc) (hr : r ∈ argRefs) :
    after (preR (F := F)) W (Proc.devRef .tc r) = W (Proc.devRef .tc r) :=
  after_of_forall_not_mem _ W fun op hop => (List.forall_iff_forall_mem.mp wr_pre) op hop r hr
theorem keeps_mid (W : Valuation τ sig (Elt F)) (r : Ref sig .tc) (hr : r ∈ argRefs) :
    after (midR (F := F)) W (Proc.devRef .tc r) = W (Proc.devRef .tc r) :=
  after_of_forall_not_mem _ W fun op hop => (List.forall_iff_forall_mem.mp wr_mid) op hop r hr
theorem keeps_tail (W : Valuation τ sig (Elt F)) (r : Ref sig .tc) (hr : r ∈ argRefs) :
    after (tailR (F := F)) W (Proc.devRef .tc r) = W (Proc.devRef .tc r) :=
  after_of_forall_not_mem _ W fun op hop => (List.forall_iff_forall_mem.mp wr_tail) op hop r hr

/-- The fold over the whole program, stretch by stretch. -/
theorem after_ops (W : Valuation τ sig (Elt F)) :
    after (ops (F := F)) W = after tailR (after midR (after preR W)) := by
  unfold ops
  rw [after_append, after_append]

/-- The whole program leaves every argument as it found it. -/
theorem keeps_all (W : Valuation τ sig (Elt F)) (r : Ref sig .tc) (hr : r ∈ argRefs) :
    after (ops (F := F)) W (Proc.devRef .tc r) = W (Proc.devRef .tc r) := by
  rw [after_ops, keeps_tail _ r hr, keeps_mid _ r hr, keeps_pre _ r hr]

end Cert.ReferenceIdeal.Hand

end
-- ==== Proof.RPost.lean ====
/-
  The reference's frame and result: every weakly fair execution terminates with each buffer at the fold of the
  program's lines over the launch contents; no line writes an argument, so the arguments end unchanged, and the
  result buffer ends at the fold read there.
-/
import proofs.«138627_j71528385347626_2_alg».proof.Proof.RKeeps

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- An argument ends at its launch contents. -/
theorem arg_kept (c : Dev nD) (a : Ref sig .tc) (ha : a ∈ argRefs) :
    after (ops (F := F)) (launchContents m c) (a : DevRef τ sig) = m ((c.tc : Thread nD τ).loc a) :=
  keeps_all (launchContents m c) a ha

/-- The run with the result at the fold and the arguments unchanged. -/
theorem run_value : θ_run defs (onTc (τ := τ) (main (F := F))) ⟨m, fun _ => 0, ρ⟩ (fun r => ∀ c : Dev nD,
      r.2.mem ((c.tc : Thread nD τ).loc main_v74) = after (ops (F := F)) (launchContents m c) (main_v74 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c main_v74,
    (h c main_arg0).trans (arg_kept m c main_arg0 (by decide)), (h c main_arg1).trans (arg_kept m c main_arg1 (by decide)),
    (h c main_arg2).trans (arg_kept m c main_arg2 (by decide)), (h c main_arg3).trans (arg_kept m c main_arg3 (by decide)),
    (h c main_arg4).trans (arg_kept m c main_arg4 (by decide)), (h c main_arg5).trans (arg_kept m c main_arg5 (by decide)),
    (h c main_arg6).trans (arg_kept m c main_arg6 (by decide)), (h c main_arg7).trans (arg_kept m c main_arg7 (by decide)),
    (h c main_arg8).trans (arg_kept m c main_arg8 (by decide)), (h c main_arg9).trans (arg_kept m c main_arg9 (by decide)),
    (h c main_arg10).trans (arg_kept m c main_arg10 (by decide)), (h c main_arg11).trans (arg_kept m c main_arg11 (by decide)),
    (h c main_arg12).trans (arg_kept m c main_arg12 (by decide)), (h c main_arg13).trans (arg_kept m c main_arg13 (by decide)),
    (h c main_arg14).trans (arg_kept m c main_arg14 (by decide))⟩) (run_main m ρ)

/-- THE FRAME: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run_value m ρ)

end Cert.ReferenceIdeal.Hand

end
-- ==== Proof.Glue.lean ====
/-
  The two programs share their host lines. From the arguments to the two operands mu and sigma of the
  pseudo-attention, and from the attention rows to the result, the reference and the kernel's program apply the same
  operations in the same order, each to buffers of its own; so from contents that agree on what the lines read, the
  lines' folds agree on what they compute. Neither chain is opened: both folds are read back as composed terms and
  the terms are the same.
-/
import proofs.«138627_j71528385347626_2_alg».proof.Proof.KFrame
import proofs.«138627_j71528385347626_2_alg».proof.Proof.RefOps
import proofs.«138627_j71528385347626_2_alg».proof.Proof.Gen.ReferenceIdeal
import Idealize.ShloMosaic.PureOps.Ideal
import Idealize.ShloMosaic.Lib.StableHlo.Run

set_option maxRecDepth 16384

noncomputable section

namespace Cert.Glue

open Idealize.ShloMosaic Idealize.ShloMosaic.TcCoe Idealize.SL.Sem Idealize.ShloMosaic.StableHlo

/-- Buffer contents of the reference's device and of the kernel program's. -/
abbrev VR := Valuation Cert.ReferenceIdeal.τ Cert.ReferenceIdeal.sig (Elt Ideal)
abbrev VK := Valuation Cert.KernelIdeal.τ Cert.KernelIdeal.sig (Elt Ideal)

/-- The kernel program's lines before the region, as one list. -/
abbrev preK : List (HloOp Cert.KernelIdeal.τ Cert.KernelIdeal.sig (Elt Ideal)) :=
  List.flatten (Cert.KernelIdeal.Hand.preOps (F := Ideal))

set_option maxHeartbeats 8000000 in
/-- From contents agreeing on Q, the two projection weights and biases and the first layer norm's gain and bias, the
    lines before the pseudo-attention leave the same mu and the same sigma in both programs. -/
theorem pre_eq (X : VR) (Y : VK)
    (h0 : X (Cert.ReferenceIdeal.main_arg0 : DevRef Cert.ReferenceIdeal.τ Cert.ReferenceIdeal.sig) = Y (Cert.KernelIdeal.main_arg0 : DevRef Cert.KernelIdeal.τ Cert.KernelIdeal.sig))
    (h3 : X (Cert.ReferenceIdeal.main_arg3 : DevRef Cert.ReferenceIdeal.τ Cert.ReferenceIdeal.sig) = Y (Cert.KernelIdeal.main_arg3 : DevRef Cert.KernelIdeal.τ Cert.KernelIdeal.sig))
    (h4 : X (Cert.ReferenceIdeal.main_arg4 : DevRef Cert.ReferenceIdeal.τ Cert.ReferenceIdeal.sig) = Y (Cert.KernelIdeal.main_arg4 : DevRef Cert.KernelIdeal.τ Cert.KernelIdeal.sig))
    (h5 : X (Cert.ReferenceIdeal.main_arg5 : DevRef Cert.ReferenceIdeal.τ Cert.ReferenceIdeal.sig) = Y (Cert.KernelIdeal.main_arg5 : DevRef Cert.KernelIdeal.τ Cert.KernelIdeal.sig))
    (h6 : X (Cert.ReferenceIdeal.main_arg6 : DevRef Cert.ReferenceIdeal.τ Cert.ReferenceIdeal.sig) = Y (Cert.KernelIdeal.main_arg6 : DevRef Cert.KernelIdeal.τ Cert.KernelIdeal.sig))
    (h13 : X (Cert.ReferenceIdeal.main_arg13 : DevRef Cert.ReferenceIdeal.τ Cert.ReferenceIdeal.sig) = Y (Cert.KernelIdeal.main_arg13 : DevRef Cert.KernelIdeal.τ Cert.KernelIdeal.sig))
    (h14 : X (Cert.ReferenceIdeal.main_arg14 : DevRef Cert.ReferenceIdeal.τ Cert.ReferenceIdeal.sig) = Y (Cert.KernelIdeal.main_arg14 : DevRef Cert.KernelIdeal.τ Cert.KernelIdeal.sig)) :
    after (Cert.ReferenceIdeal.Hand.preR (F := Ideal)) X (Cert.ReferenceIdeal.main_v24 : DevRef Cert.ReferenceIdeal.τ Cert.ReferenceIdeal.sig)
        = after preK Y (Cert.KernelIdeal.main_v29 : DevRef Cert.KernelIdeal.τ Cert.KernelIdeal.sig)
    ∧ after (Cert.ReferenceIdeal.Hand.preR (F := Ideal)) X (Cert.ReferenceIdeal.main_v30 : DevRef Cert.ReferenceIdeal.τ Cert.ReferenceIdeal.sig)
        = after preK Y (Cert.KernelIdeal.main_v30 : DevRef Cert.KernelIdeal.τ Cert.KernelIdeal.sig) := by
  constructor
  · simp only [preK, Cert.KernelIdeal.Hand.preOps, List.flatten_cons, List.flatten_nil, List.append_nil, List.cons_append, List.nil_append]
    after_results_simp
    rw [h0, h3, h4, h13, h14]
    rfl
  · simp only [preK, Cert.KernelIdeal.Hand.preOps, List.flatten_cons, List.flatten_nil, List.append_nil, List.cons_append, List.nil_append]
    after_results_simp
    rw [h0, h5, h6, h13, h14]
    rfl

/-- The first line after the region: the kernel's [32, 1024, 1] result read as [32, 1024]. -/
abbrev reshapeK : HloOp Cert.KernelIdeal.τ Cert.KernelIdeal.sig (Elt Ideal) :=
  StableHlo.reshape Cert.KernelIdeal.main_v31 Cert.KernelIdeal.main_v32 rfl Cert.KernelIdeal.Facts₀.shapeCasts_S32x1024x1_S32x1024

/-- The kernel program's lines after that one, as one list. -/
abbrev restK : List (HloOp Cert.KernelIdeal.τ Cert.KernelIdeal.sig (Elt Ideal)) :=
  List.tail (Cert.KernelIdeal.Gen.hostOps1 (F := Ideal)) ++ (Cert.KernelIdeal.Gen.hostOps1_1 ++ (Cert.KernelIdeal.Gen.hostOps1_2
    ++ (Cert.KernelIdeal.Gen.hostOps1_3 ++ (Cert.KernelIdeal.Gen.hostOps1_4 ++ []))))

/-- The lines after the region are that first line and the rest. -/
theorem tail_split : List.flatten (Cert.KernelIdeal.Hand.tailOps (F := Ideal)) = reshapeK :: restK := rfl

set_option maxHeartbeats 16000000 in
/-- From contents agreeing on the attention rows, on Q, on the feed-forward weights and biases and on the second layer
    norm's gain and bias, the lines after the pseudo-attention leave the same result in both programs. -/
theorem tail_eq (X : VR) (Y : VK)
    (hx : X (Cert.ReferenceIdeal.main_v43 : DevRef Cert.ReferenceIdeal.τ Cert.ReferenceIdeal.sig) = Y (Cert.KernelIdeal.main_v32 : DevRef Cert.KernelIdeal.τ Cert.KernelIdeal.sig))
    (h0 : X (Cert.ReferenceIdeal.main_arg0 : DevRef Cert.ReferenceIdeal.τ Cert.ReferenceIdeal.sig) = Y (Cert.KernelIdeal.main_arg0 : DevRef Cert.KernelIdeal.τ Cert.KernelIdeal.sig))
    (h7 : X (Cert.ReferenceIdeal.main_arg7 : DevRef Cert.ReferenceIdeal.τ Cert.ReferenceIdeal.sig) = Y (Cert.KernelIdeal.main_arg7 : DevRef Cert.KernelIdeal.τ Cert.KernelIdeal.sig))
    (h8 : X (Cert.ReferenceIdeal.main_arg8 : DevRef Cert.ReferenceIdeal.τ Cert.ReferenceIdeal.sig) = Y (Cert.KernelIdeal.main_arg8 : DevRef Cert.KernelIdeal.τ Cert.KernelIdeal.sig))
    (h9 : X (Cert.ReferenceIdeal.main_arg9 : DevRef Cert.ReferenceIdeal.τ Cert.ReferenceIdeal.sig) = Y (Cert.KernelIdeal.main_arg9 : DevRef Cert.KernelIdeal.τ Cert.KernelIdeal.sig))
    (h10 : X (Cert.ReferenceIdeal.main_arg10 : DevRef Cert.ReferenceIdeal.τ Cert.ReferenceIdeal.sig) = Y (Cert.KernelIdeal.main_arg10 : DevRef Cert.KernelIdeal.τ Cert.KernelIdeal.sig))
    (h11 : X (Cert.ReferenceIdeal.main_arg11 : DevRef Cert.ReferenceIdeal.τ Cert.ReferenceIdeal.sig) = Y (Cert.KernelIdeal.main_arg11 : DevRef Cert.KernelIdeal.τ Cert.KernelIdeal.sig))
    (h12 : X (Cert.ReferenceIdeal.main_arg12 : DevRef Cert.ReferenceIdeal.τ Cert.ReferenceIdeal.sig) = Y (Cert.KernelIdeal.main_arg12 : DevRef Cert.KernelIdeal.τ Cert.KernelIdeal.sig)) :
    after (Cert.ReferenceIdeal.Hand.tailR (F := Ideal)) X (Cert.ReferenceIdeal.main_v74 : DevRef Cert.ReferenceIdeal.τ Cert.ReferenceIdeal.sig)
        = after restK Y (Cert.KernelIdeal.main_v63 : DevRef Cert.KernelIdeal.τ Cert.KernelIdeal.sig) := by
  simp only [restK, List.tail_cons, List.append_nil, List.cons_append, List.nil_append]
  after_results_simp
  rw [hx, h0, h7, h8, h9, h10, h11, h12]
  rfl

end Cert.Glue

end
-- ==== Proof.RefMid.lean ====
/-
  The reference's Gaussian pseudo-attention read at an index. The sixteen host operations between the two
  rank-three operands mu, sigma and the attention rows compose to one term of the arrays K, V, mu, sigma; at row
  (b, n) that term is the sum over the last axis d of
      exp (((-0.5) * ((K(b,n,d) - mu(b,n)) * (K(b,n,d) - mu(b,n)))) / (sigma(b,n) * sigma(b,n) + eps)) * V(b,n,d),
  the two float literals kept as the words the program states them by.
-/
import proofs.«138627_j71528385347626_2_alg».proof.Proof.RefOps
import Idealize.ShloMosaic.Lib.IdealHost
import Idealize.ShloMosaic.Lib.Pipeline.Value
import Idealize.ShloMosaic.PureOps.Ideal.Laws

noncomputable section

namespace Cert.ReferenceIdeal.HandValue

open Cert.ReferenceIdeal Cert.ReferenceIdeal.Hand Idealize.ShloMosaic Idealize.ShloMosaic.TcCoe Idealize.SL.Sem
open Idealize.ShloMosaic.StableHlo Idealize.ShloMosaic.ValueIdx
open Cert.ReferenceIdeal.Facts₀
open scoped BigOperators

variable [Cert.ReferenceIdeal.Facts]

/-! ## The three broadcasts read at an index -/

/-- A column [32,1024,1] broadcast along the last axis reads, at (b, n, d), the column's entry (b, n, 0). -/
theorem bcastLast_apply {α : Type} (h : S32x1024x1.BroadcastsInDim S32x1024x1024 (![0, 1, 2] : Fin 3 → Fin S32x1024x1024.rank))
    (x : S32x1024x1.Idx → α) (b : Fin 32) (n : Fin 1024) (d : Fin 1024) :
    broadcastInDim S32x1024x1024 ![0, 1, 2] h x (ix3 b n d) = x (ix3 b n (0 : Fin 1)) :=
  broadcastInDim_apply _ h x (ix3 b n d) (ix3 b n (0 : Fin 1)) fun a =>
    match a with
    | ⟨0, _⟩ => rfl
    | ⟨1, _⟩ => rfl
    | ⟨2, _⟩ => rfl

/-- The host's sum over the last axis of a [32,1024,1024] array, at row (b, n): the initial value plus the sum over d of
    the entries (b, n, d). -/
theorem sumLast_apply (h' : S32x1024x1024.ReducesTo [2] S32x1024) (x : S32x1024x1024.Idx → EReal) (init : EReal)
    (b : Fin 32) (n : Fin 1024) :
    Ideal.hostReduceAdd h' x init (ix2 b n) = init + ∑ d : Fin 1024, x (ix3 b n d) := by
  have hred : S32x1024x1024.Reduces [2] S32x1024 := by decide
  refine (Ideal.hostReduceAdd_single h' hred x init (ix2 b n)).trans ?_
  show init + ∑ d : Fin 1024, x (hred.lift (ix2 b n) d) = _
  refine congrArg (init + ·) (Finset.sum_congr rfl fun d _ => congrArg x ?_)
  funext a
  refine Fin.ext ?_
  match a with
  | ⟨0, _⟩ => rfl
  | ⟨1, _⟩ => rfl
  | ⟨2, _⟩ => rfl

/-- The composed term: the sixteen operations applied to K, V, mu and sigma. -/
def midTerm (Kk Vv : FVec Ideal S32x1024x1024 .f32) (Mu Sg : FVec Ideal S32x1024x1 .f32) : FVec Ideal S32x1024 .f32 :=
  Host.reduceAdd (F := Ideal)
    (mulf
      (Host.exp (F := Ideal)
        (Host.divf (F := Ideal)
          (mulf (broadcastInDim S32x1024x1024 ![] bcast_S_S32x1024x1024 (constant (F := Ideal) S_ .f32 0xBF000000#32))
            (mulf (subf Kk (broadcastInDim S32x1024x1024 ![0, 1, 2] bcast_S32x1024x1_S32x1024x1024_0_1_2 Mu))
                  (subf Kk (broadcastInDim S32x1024x1024 ![0, 1, 2] bcast_S32x1024x1_S32x1024x1024_0_1_2 Mu))))
          (broadcastInDim S32x1024x1024 ![0, 1, 2] bcast_S32x1024x1_S32x1024x1024_0_1_2
            (addf (mulf Sg Sg)
              (broadcastInDim S32x1024x1 ![] bcast_S_S32x1024x1 (constant (F := Ideal) S_ .f32 0x322BCC77#32))))))
      Vv)
    (constant (F := Ideal) S_ .f32 0x00000000#32) reducesTo_S32x1024x1024_S32x1024_d2 h_S_

/-- The fold of the sixteen operations at the attention rows is the composed term of the four operands. -/
theorem mid_eq (W : Valuation τ sig (Elt Ideal)) :
    after (midR (F := Ideal)) W (main_v43 : DevRef τ sig)
      = midTerm (W (main_arg1 : DevRef τ sig)) (W (main_arg2 : DevRef τ sig)) (W (main_v24 : DevRef τ sig))
          (W (main_v30 : DevRef τ sig)) := by
  simp only [after_cons, after_nil]
  rfl

/-- The composed term read at row (b, n): the sum over the last axis. -/
theorem midTerm_apply (Kk Vv : FVec Ideal S32x1024x1024 .f32) (Mu Sg : FVec Ideal S32x1024x1 .f32) (b : Fin 32) (n : Fin 1024) :
    midTerm Kk Vv Mu Sg (ix2 b n) =
      ∑ d : Fin 1024,
        Ideal.exp (Ideal.div
            (Ideal.ofBits .f32 0xBF000000#32 * ((Kk (ix3 b n d) - Mu (ix3 b n (0 : Fin 1))) * (Kk (ix3 b n d) - Mu (ix3 b n (0 : Fin 1)))))
            (Sg (ix3 b n (0 : Fin 1)) * Sg (ix3 b n (0 : Fin 1)) + Ideal.ofBits .f32 0x322BCC77#32))
          * Vv (ix3 b n d) := by
  unfold midTerm
  rw [hostReduceAdd_apply, sumLast_apply, constant_apply, Ideal.ofBits_zero_f32, zero_add]
  refine Finset.sum_congr rfl fun d _ => ?_
  show Ideal.exp (Ideal.div
        (broadcastInDim S32x1024x1024 ![] bcast_S_S32x1024x1024 (constant (F := Ideal) S_ .f32 0xBF000000#32) (ix3 b n d)
          * ((Kk (ix3 b n d) - broadcastInDim S32x1024x1024 ![0, 1, 2] bcast_S32x1024x1_S32x1024x1024_0_1_2 Mu (ix3 b n d))
            * (Kk (ix3 b n d) - broadcastInDim S32x1024x1024 ![0, 1, 2] bcast_S32x1024x1_S32x1024x1024_0_1_2 Mu (ix3 b n d))))
        (broadcastInDim S32x1024x1024 ![0, 1, 2] bcast_S32x1024x1_S32x1024x1024_0_1_2
          (addf (mulf Sg Sg) (broadcastInDim S32x1024x1 ![] bcast_S_S32x1024x1 (constant (F := Ideal) S_ .f32 0x322BCC77#32)))
          (ix3 b n d))) * Vv (ix3 b n d) = _
  rw [bcastLast_apply, bcastLast_apply, broadcastInDim_scalar_apply, constant_apply]
  show Ideal.exp (Ideal.div _
        (Sg (ix3 b n (0 : Fin 1)) * Sg (ix3 b n (0 : Fin 1))
          + broadcastInDim S32x1024x1 ![] bcast_S_S32x1024x1 (constant (F := Ideal) S_ .f32 0x322BCC77#32) (ix3 b n (0 : Fin 1))))
      * Vv (ix3 b n d) = _
  rw [broadcastInDim_scalar_apply, constant_apply]

/-- The reference's attention rows after the sixteen operations, from any contents whose four operands are the arrays
    K, V, mu, sigma: at row (b, n) the sum over d of exp (((-0.5) * (K - mu)²) / (sigma² + eps)) * V, with mu and sigma
    read at (b, n, 0). -/
theorem mid_apply_of_eq (W : Valuation τ sig (Elt Ideal)) (Kk Vv : FVec Ideal S32x1024x1024 .f32)
    (Mu Sg : FVec Ideal S32x1024x1 .f32)
    (hK : W (main_arg1 : DevRef τ sig) = Kk) (hV : W (main_arg2 : DevRef τ sig) = Vv)
    (hMu : W (main_v24 : DevRef τ sig) = Mu) (hSg : W (main_v30 : DevRef τ sig) = Sg) (b : Fin 32) (n : Fin 1024) :
    (after (midR (F := Ideal)) W (main_v43 : DevRef τ sig) : S32x1024.Idx → EReal) (ix2 b n) =
      ∑ d : Fin 1024,
        Ideal.exp (Ideal.div
            (Ideal.ofBits .f32 0xBF000000#32 * ((Kk (ix3 b n d) - Mu (ix3 b n (0 : Fin 1))) * (Kk (ix3 b n d) - Mu (ix3 b n (0 : Fin 1)))))
            (Sg (ix3 b n (0 : Fin 1)) * Sg (ix3 b n (0 : Fin 1)) + Ideal.ofBits .f32 0x322BCC77#32))
          * Vv (ix3 b n d) := by
  rw [mid_eq, hK, hV, hMu, hSg]
  exact midTerm_apply Kk Vv Mu Sg b n

/-- The four operands' contents, typed as the arrays of extended reals they are. -/
abbrev opK (W : Valuation τ sig (Elt Ideal)) : S32x1024x1024.Idx → EReal := W (main_arg1 : DevRef τ sig)
abbrev opV (W : Valuation τ sig (Elt Ideal)) : S32x1024x1024.Idx → EReal := W (main_arg2 : DevRef τ sig)
abbrev opMu (W : Valuation τ sig (Elt Ideal)) : S32x1024x1.Idx → EReal := W (main_v24 : DevRef τ sig)
abbrev opSg (W : Valuation τ sig (Elt Ideal)) : S32x1024x1.Idx → EReal := W (main_v30 : DevRef τ sig)

/-- The same from any contents, the operands read where they stand. -/
theorem mid_apply (W : Valuation τ sig (Elt Ideal)) (b : Fin 32) (n : Fin 1024) :
    (after (midR (F := Ideal)) W (main_v43 : DevRef τ sig) : S32x1024.Idx → EReal) (ix2 b n) =
      ∑ d : Fin 1024,
        Ideal.exp (Ideal.div
            (Ideal.ofBits .f32 0xBF000000#32 * ((opK W (ix3 b n d) - opMu W (ix3 b n (0 : Fin 1))) * (opK W (ix3 b n d) - opMu W (ix3 b n (0 : Fin 1)))))
            (opSg W (ix3 b n (0 : Fin 1)) * opSg W (ix3 b n (0 : Fin 1)) + Ideal.ofBits .f32 0x322BCC77#32))
          * opV W (ix3 b n d) :=
  mid_apply_of_eq W _ _ _ _ rfl rfl rfl rfl b n

end Cert.ReferenceIdeal.HandValue

end
-- ==== Proof.KValue.lean ====
/-
  The value the Gaussian region leaves in its output array, read at one index.

  At grid point t the body reads row t of K and V (blocks [1, 1024, 1024]) and of the columns mu and sigma
  (blocks [1, 1024, 1]) and stores the column [1, 1024, 1] whose entry at token q is

      ∑ d, exp ((K q d - mu q) * (K q d - mu q) * ((-1/2) / (sigma q * sigma q + eps))) * V q d.

  First the body's one stored value is read at an index: the unit axes of the casts drop out, the two column
  broadcasts read their column's one entry, the pointwise operations are the extended reals' and the reduction
  over the second axis from the zero accumulator is the plain sum over the row. Then each input block is read
  where the output's block says (block coordinate = block index × block size + coordinate inside the block, the
  index maps decided once over the 32 grid points), so what point t writes back is block t of ONE function of the
  four arrays as the region finds them; the 32 blocks cover the output array (point b covers row b), and the array
  after the last point is that function.
-/
import proofs.«138627_j71528385347626_2_alg».proof.Proof.KFrame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

/-! ## Three layout operations read at coordinates -/

/-- A vector [a] cast to a column [a, 1] reads, at (i, u), the vector at i. -/
theorem cast_to_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the second axis to [a, b] reads, at (p, c), the column's entry at p. -/
theorem broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum of a [1024, 1024] vector over its second axis from the zero accumulator reads, at row q, the plain
    sum of the row. -/
theorem row_sum (src : FVec Ideal S1024x1024 .f32) (h : S1024x1024.Reduces [1] S1024) (hφ : FKind.Formats .f32)
    (hacc : (0x00000000#32 : BitVec 32) = 0x00000000#32) (q : Fin 1024) :
    multiReduction .add [1] S1024 src 0x00000000#32 h hφ hacc (ix1 q) = ∑ d : Fin 1024, src (ix2 q d) := by
  refine (Ideal.multiReduction_add_single src 0x00000000#32 h hφ hacc (ix1 q)).trans ?_
  refine Finset.sum_congr rfl fun d _ => congrArg src ?_
  funext a
  apply Fin.ext
  match a with
  | ⟨0, _⟩ => rfl
  | ⟨1, _⟩ => rfl

/-! ## The stored value at an index -/

/-- The exponential at an index is the extended reals' exponential of the entry. -/
theorem exp_apply {s : Shape} {φ : FTy} (a : FVec Ideal s φ) (i : s.Idx) : exp a i = Ideal.exp (a i) := rfl

/-- THE STORED COLUMN AT TOKEN q, over any four loaded blocks. -/
theorem stored_apply (x0 x1 : Vec Ideal S1x1024x1024 .f32) (x2 x3 : Vec Ideal S1x1024x1 .f32) (q : Fin 1024) :
    k0_pay1 x0 x1 x2 x3 (ix3 (0 : Fin 1) q (0 : Fin 1)) =
      ∑ d : Fin 1024,
        Ideal.exp (((x0 (ix3 (0 : Fin 1) q d) - x2 (ix3 (0 : Fin 1) q (0 : Fin 1))) * (x0 (ix3 (0 : Fin 1) q d) - x2 (ix3 (0 : Fin 1) q (0 : Fin 1))))
            * Ideal.div (Ideal.ofBits .f32 0xBF000000#32) (x3 (ix3 (0 : Fin 1) q (0 : Fin 1)) * x3 (ix3 (0 : Fin 1) q (0 : Fin 1)) + Ideal.ofBits .f32 0x322BCC77#32))
          * x1 (ix3 (0 : Fin 1) q d) := by
  unfold k0_pay1
  refine (shapeCast_ab_1ab_apply _ _ (0 : Fin 1) q (0 : Fin 1)).trans ?_
  refine (cast_to_column _ _ q (0 : Fin 1)).trans ?_
  refine (row_sum _ _ _ _ q).trans ?_
  refine Finset.sum_congr rfl fun d _ => ?_
  simp only [mulf_apply, exp_apply, subf_apply, divf_apply, addf_apply, broadcast_apply, broadcast_column, shapeCast_1ab_ab_apply]
  rfl

/-- The same at any index of the stored column: its two unit coordinates are zero. -/
theorem stored_at (x0 x1 : Vec Ideal S1x1024x1024 .f32) (x2 x3 : Vec Ideal S1x1024x1 .f32) (y : S1x1024x1.Idx) (q : Fin 1024)
    (hq : (y 1).val = q.val) :
    k0_pay1 x0 x1 x2 x3 y =
      ∑ d : Fin 1024,
        Ideal.exp (((x0 (ix3 (0 : Fin 1) q d) - x2 (ix3 (0 : Fin 1) q (0 : Fin 1))) * (x0 (ix3 (0 : Fin 1) q d) - x2 (ix3 (0 : Fin 1) q (0 : Fin 1))))
            * Ideal.div (Ideal.ofBits .f32 0xBF000000#32) (x3 (ix3 (0 : Fin 1) q (0 : Fin 1)) * x3 (ix3 (0 : Fin 1) q (0 : Fin 1)) + Ideal.ofBits .f32 0x322BCC77#32))
          * x1 (ix3 (0 : Fin 1) q d) := by
  have hy : y = ix3 (0 : Fin 1) q (0 : Fin 1) := by
    funext a
    apply Fin.ext
    match a with
    | ⟨0, _⟩ => have h : (y 0).val < 1 := (y 0).isLt; show (y 0).val = 0; omega
    | ⟨1, _⟩ => exact hq
    | ⟨2, _⟩ => have h : (y 2).val < 1 := (y 2).isLt; show (y 2).val = 0; omega
  rw [hy]
  exact stored_apply x0 x1 x2 x3 q

/-! ## The blocks read off the arrays -/

variable (m : (ℓ : Loc nD τ sig) → Buf (Elt Ideal) ℓ)

theorem zero_offsets : (![0, 0, 0] : Fin 3 → Nat) = fun _ => 0 := funext fun a => by fin_cases a <;> rfl

/-- The printed index maps, decided over the 32 grid points: every window's block at point t is block (t, 0, 0). -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The K window's block at point t is row t of the array. -/
theorem blockK_apply (c : Dev nD) (t : Fin cfg0.N) (x : S1x1024x1024.Idx) (k : S32x1024x1024.Idx)
    (h0 : (k 0).val = t.val) (h1 : (k 1).val = (x 1).val) (h2 : (k 2).val = (x 2).val) :
    (iblk m c 0 t : Vec Ideal S1x1024x1024 .f32) x = (V m c main_arg1 : S32x1024x1024.Idx → EReal) k := by
  obtain ⟨⟨e0, e1, e2⟩, -⟩ := index_facts t
  unfold iblk
  rw [View.read_apply]
  show V m c main_arg1 _ = V m c main_arg1 _
  congr 1
  funext a
  apply Fin.ext
  match a with
  | ⟨0, _⟩ => show win0_0.index t (0 : Fin 3) * 1 + 1 * (x 0).val = (k 0).val; have h : (x 0).val < 1 := (x 0).isLt; omega
  | ⟨1, _⟩ => show win0_0.index t (1 : Fin 3) * 1024 + 1 * (x 1).val = (k 1).val; omega
  | ⟨2, _⟩ => show win0_0.index t (2 : Fin 3) * 1024 + 1 * (x 2).val = (k 2).val; omega

/-- The V window's block at point t is row t of the array. -/
theorem blockV_apply (c : Dev nD) (t : Fin cfg0.N) (x : S1x1024x1024.Idx) (k : S32x1024x1024.Idx)
    (h0 : (k 0).val = t.val) (h1 : (k 1).val = (x 1).val) (h2 : (k 2).val = (x 2).val) :
    (iblk m c 1 t : Vec Ideal S1x1024x1024 .f32) x = (V m c main_arg2 : S32x1024x1024.Idx → EReal) k := by
  obtain ⟨-, ⟨e0, e1, e2⟩, -⟩ := index_facts t
  unfold iblk
  rw [View.read_apply]
  show V m c main_arg2 _ = V m c main_arg2 _
  congr 1
  funext a
  apply Fin.ext
  match a with
  | ⟨0, _⟩ => show win0_1.index t (0 : Fin 3) * 1 + 1 * (x 0).val = (k 0).val; have h : (x 0).val < 1 := (x 0).isLt; omega
  | ⟨1, _⟩ => show win0_1.index t (1 : Fin 3) * 1024 + 1 * (x 1).val = (k 1).val; omega
  | ⟨2, _⟩ => show win0_1.index t (2 : Fin 3) * 1024 + 1 * (x 2).val = (k 2).val; omega

/-- The mu window's block at point t is row t of the column array. -/
theorem blockMu_apply (c : Dev nD) (t : Fin cfg0.N) (x : S1x1024x1.Idx) (k : S32x1024x1.Idx)
    (h0 : (k 0).val = t.val) (h1 : (k 1).val = (x 1).val) (h2 : (k 2).val = (x 2).val) :
    (iblk m c 2 t : Vec Ideal S1x1024x1 .f32) x = (V m c main_v29 : S32x1024x1.Idx → EReal) k := by
  obtain ⟨-, -, ⟨e0, e1, e2⟩, -⟩ := index_facts t
  unfold iblk
  rw [View.read_apply]
  show V m c main_v29 _ = V m c main_v29 _
  congr 1
  funext a
  apply Fin.ext
  match a with
  | ⟨0, _⟩ => show win0_2.index t (0 : Fin 3) * 1 + 1 * (x 0).val = (k 0).val; have h : (x 0).val < 1 := (x 0).isLt; omega
  | ⟨1, _⟩ => show win0_2.index t (1 : Fin 3) * 1024 + 1 * (x 1).val = (k 1).val; omega
  | ⟨2, _⟩ => show win0_2.index t (2 : Fin 3) * 1 + 1 * (x 2).val = (k 2).val; omega

/-- The sigma window's block at point t is row t of the column array. -/
theorem blockSigma_apply (c : Dev nD) (t : Fin cfg0.N) (x : S1x1024x1.Idx) (k : S32x1024x1.Idx)
    (h0 : (k 0).val = t.val) (h1 : (k 1).val = (x 1).val) (h2 : (k 2).val = (x 2).val) :
    (iblk m c 3 t : Vec Ideal S1x1024x1 .f32) x = (V m c main_v30 : S32x1024x1.Idx → EReal) k := by
  obtain ⟨-, -, -, ⟨e0, e1, e2⟩, -⟩ := index_facts t
  unfold iblk
  rw [View.read_apply]
  show V m c main_v30 _ = V m c main_v30 _
  congr 1
  funext a
  apply Fin.ext
  match a with
  | ⟨0, _⟩ => show win0_3.index t (0 : Fin 3) * 1 + 1 * (x 0).val = (k 0).val; have h : (x 0).val < 1 := (x 0).isLt; omega
  | ⟨1, _⟩ => show win0_3.index t (1 : Fin 3) * 1024 + 1 * (x 1).val = (k 1).val; omega
  | ⟨2, _⟩ => show win0_3.index t (2 : Fin 3) * 1 + 1 * (x 2).val = (k 2).val; omega

/-! ## The output array as one function of the four arrays -/

/-- Row b, token n of the result, from the arrays K, V (A1, A2) and the columns mu, sigma (A3, A4). -/
def rowValue (A1 A2 : S32x1024x1024.Idx → EReal) (A3 A4 : S32x1024x1.Idx → EReal) (b : Fin 32) (n : Fin 1024) : EReal :=
  ∑ d : Fin 1024,
    Ideal.exp (((A1 (ix3 b n d) - A3 (ix3 b n (0 : Fin 1))) * (A1 (ix3 b n d) - A3 (ix3 b n (0 : Fin 1))))
        * Ideal.div (Ideal.ofBits .f32 0xBF000000#32) (A4 (ix3 b n (0 : Fin 1)) * A4 (ix3 b n (0 : Fin 1)) + Ideal.ofBits .f32 0x322BCC77#32))
      * A2 (ix3 b n d)

/-- The whole output array. -/
def regionValue (A1 A2 : S32x1024x1024.Idx → EReal) (A3 A4 : S32x1024x1.Idx → EReal) : S32x1024x1.Idx → EReal :=
  fun i => rowValue A1 A2 A3 A4 ⟨(i 0).val, (i 0).isLt⟩ ⟨(i 1).val, (i 1).isLt⟩

/-- WHAT POINT t WRITES BACK is block t of that function of the arrays as the region finds them. -/
theorem flushed_eq (c : Dev nD) (t : Fin cfg0.N) :
    (dats (F := Ideal) m 0 c).flushed 4 t
      = ((cfg0.win 4).blk t).view.read (Elt Ideal) (regionValue (V m c main_arg1) (V m c main_arg2) (V m c main_v29) (V m c main_v30)) := by
  show (cfg0.win 4).cut (grid0.coords t) ((dats m 0 c).after 4 t) = _
  rw [after0_4]
  unfold out0_4
  rw [View.canon_unit_zero zero_offsets]
  simp only [View.ld_unit_zero (S := S1x1024x1024) zero_offsets, View.ld_unit_zero (S := S1x1024x1) zero_offsets]
  funext j
  have ht : t.val < 32 := lt_of_lt_of_eq t.isLt N_0
  have hj0 : (j 0).val < 1 := (j 0).isLt
  have hj1 : (j 1).val < 1024 := (j 1).isLt
  have hj2 : (j 2).val < 1 := (j 2).isLt
  obtain ⟨-, -, -, -, ⟨e0, e1, e2⟩⟩ := index_facts t
  have hemb : ((cfg0.win 4).blk t).view.emb j = (ix3 (⟨t.val, ht⟩ : Fin 32) (⟨(j 1).val, hj1⟩ : Fin 1024) (0 : Fin 1) : S32x1024x1.Idx) := by
    funext a
    apply Fin.ext
    match a with
    | ⟨0, _⟩ => show win0_4.index t (0 : Fin 3) * 1 + 1 * (j 0).val = t.val; omega
    | ⟨1, _⟩ => show win0_4.index t (1 : Fin 3) * 1024 + 1 * (j 1).val = (j 1).val; omega
    | ⟨2, _⟩ => show win0_4.index t (2 : Fin 3) * 1 + 1 * (j 2).val = 0; omega
  show k0_pay1 (iblk m c 0 t) (iblk m c 1 t) (iblk m c 2 t) (iblk m c 3 t) j
      = regionValue (V m c main_arg1) (V m c main_arg2) (V m c main_v29) (V m c main_v30) (((cfg0.win 4).blk t).view.emb j)
  rw [hemb]
  refine (stored_at _ _ _ _ j ⟨(j 1).val, hj1⟩ rfl).trans ?_
  show _ = rowValue (V m c main_arg1) (V m c main_arg2) (V m c main_v29) (V m c main_v30) ⟨t.val, ht⟩ ⟨(j 1).val, hj1⟩
  unfold rowValue
  refine Finset.sum_congr rfl fun d _ => ?_
  rw [blockK_apply m c t (ix3 (0 : Fin 1) (⟨(j 1).val, hj1⟩ : Fin 1024) d) (ix3 (⟨t.val, ht⟩ : Fin 32) (⟨(j 1).val, hj1⟩ : Fin 1024) d) rfl rfl rfl,
    blockV_apply m c t (ix3 (0 : Fin 1) (⟨(j 1).val, hj1⟩ : Fin 1024) d) (ix3 (⟨t.val, ht⟩ : Fin 32) (⟨(j 1).val, hj1⟩ : Fin 1024) d) rfl rfl rfl,
    blockMu_apply m c t (ix3 (0 : Fin 1) (⟨(j 1).val, hj1⟩ : Fin 1024) (0 : Fin 1)) (ix3 (⟨t.val, ht⟩ : Fin 32) (⟨(j 1).val, hj1⟩ : Fin 1024) (0 : Fin 1)) rfl rfl rfl,
    blockSigma_apply m c t (ix3 (0 : Fin 1) (⟨(j 1).val, hj1⟩ : Fin 1024) (0 : Fin 1)) (ix3 (⟨t.val, ht⟩ : Fin 32) (⟨(j 1).val, hj1⟩ : Fin 1024) (0 : Fin 1)) rfl rfl rfl]

/-! ## The cover, and the array after the last point -/

/-- An index of the output array is in point t's block iff each coordinate is in the block's range on its axis. -/
theorem mem_block (t : Fin cfg0.N) (i : S32x1024x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v31).slice (win0_4.rect t)).set ↔ _
  rw [View.set_slice_whole, Rect.mem_set_unit]
  exact Iff.rfl

/-- THE OUTPUT ARRAY after the last point: point b's block is row b, so the 32 blocks cover it. -/
theorem array_eq (c : Dev nD) :
    (dats (F := Ideal) m 0 c).arrAt 4 cfg0.N = regionValue (V m c main_arg1) (V m c main_arg2) (V m c main_v29) (V m c main_v30) :=
  (dats m 0 c).arrAt_eq_of_cover 4 _ (fun t _ => flushed_eq m c t) fun i => by
    have hi0 : (i 0).val < 32 := (i 0).isLt
    have hi1 : (i 1).val < 1024 := (i 1).isLt
    have hi2 : (i 2).val < 1 := (i 2).isLt
    have hN : (i 0).val < cfg0.N := lt_of_lt_of_eq hi0 N_0.symm
    refine ⟨⟨(i 0).val, hN⟩, flush0_4 _, ?_⟩
    obtain ⟨-, -, -, -, ⟨e0, e1, e2⟩⟩ := index_facts ⟨(i 0).val, hN⟩
    have e0' : win0_4.index ⟨(i 0).val, hN⟩ (0 : Fin 3) = (i 0).val := e0
    rw [mem_block]
    intro a
    match a with
    | ⟨0, _⟩ => show win0_4.index ⟨(i 0).val, hN⟩ (0 : Fin 3) * 1 ≤ (i 0).val ∧ (i 0).val < win0_4.index ⟨(i 0).val, hN⟩ (0 : Fin 3) * 1 + 1; omega
    | ⟨1, _⟩ => show win0_4.index ⟨(i 0).val, hN⟩ (1 : Fin 3) * 1024 ≤ (i 1).val ∧ (i 1).val < win0_4.index ⟨(i 0).val, hN⟩ (1 : Fin 3) * 1024 + 1024; omega
    | ⟨2, _⟩ => show win0_4.index ⟨(i 0).val, hN⟩ (2 : Fin 3) * 1 ≤ (i 2).val ∧ (i 2).val < win0_4.index ⟨(i 0).val, hN⟩ (2 : Fin 3) * 1 + 1; omega

/-- THE OUTPUT ARRAY AT (b, n): the sum over d of the Gaussian weight of K(b, n, d) about mu(b, n) times V(b, n, d),
    over the four arrays as the region finds them. -/
theorem final4 (c : Dev nD) (b : Fin 32) (n : Fin 1024) :
    ((dats (F := Ideal) m 0 c).arrAt 4 cfg0.N : S32x1024x1.Idx → EReal) (ix3 b n (0 : Fin 1)) =
      rowValue (V m c main_arg1) (V m c main_arg2) (V m c main_v29) (V m c main_v30) b n :=
  congrFun (array_eq m c) (ix3 b n (0 : Fin 1))

/-- That value spelt out, over any four arrays. -/
theorem rowValue_eq (A1 A2 : S32x1024x1024.Idx → EReal) (A3 A4 : S32x1024x1.Idx → EReal) (b : Fin 32) (n : Fin 1024) :
    rowValue A1 A2 A3 A4 b n =
      ∑ d : Fin 1024,
        Ideal.exp (((A1 (ix3 b n d) - A3 (ix3 b n (0 : Fin 1))) * (A1 (ix3 b n d) - A3 (ix3 b n (0 : Fin 1))))
            * Ideal.div (Ideal.ofBits .f32 0xBF000000#32) (A4 (ix3 b n (0 : Fin 1)) * A4 (ix3 b n (0 : Fin 1)) + Ideal.ofBits .f32 0x322BCC77#32))
          * A2 (ix3 b n d) := rfl

end Cert.KernelIdeal.HandValue

end
-- ==== Proof.Law.lean ====
/-
  The one algebraic law that joins the two programs. With d the difference K − mu, s the value sigma, c the
  literal −1/2 and e the positive literal added to sigma squared, the kernel exponentiates (d·d)·(c / (s·s + e)) and
  the reference ((c·(d·d)) / (s·s + e)). On the extended reals s·s is never negative (a product of two infinities of one
  sign is +inf), so s·s + e is positive, never zero; the quotient by a nonzero extended real is the product with its
  inverse, and products of extended reals commute and associate. No finiteness of the inputs is used.
-/
import Idealize.ShloMosaic.PureOps.Ideal

noncomputable section

namespace Cert.Law

open Idealize.ShloMosaic

/-- The positive literal of the denominator is positive. -/
theorem eps_pos : (0 : EReal) < Ideal.ofBits .f32 0x322BCC77#32 := by
  simp [Ideal.ofBits, Ideal.ieee]
  positivity

/-- A square on the extended reals is never negative. -/
theorem mul_self_nonneg' (s : EReal) : 0 ≤ s * s := by
  rcases le_total 0 s with h | h
  · exact EReal.mul_nonneg_iff.mpr (.inl ⟨h, h⟩)
  · exact EReal.mul_nonneg_iff.mpr (.inr ⟨h, h⟩)

/-- The denominator is never zero. -/
theorem den_ne_zero (s : EReal) : s * s + Ideal.ofBits .f32 0x322BCC77#32 ≠ 0 :=
  (Right.add_pos_of_nonneg_of_pos (mul_self_nonneg' s) eps_pos).ne'

/-- The kernel's scaled square is the reference's quotient. -/
theorem scale_eq (x s c : EReal) :
    (x * x) * Ideal.div c (s * s + Ideal.ofBits .f32 0x322BCC77#32)
      = Ideal.div (c * (x * x)) (s * s + Ideal.ofBits .f32 0x322BCC77#32) := by
  unfold Ideal.div
  rw [if_neg (den_ne_zero s), if_neg (den_ne_zero s), ← mul_assoc, mul_comm (x * x) c]

end Cert.Law

end
-- ==== Proof.LibChannelRead.lean ====
/-
  One channel of a rank-three block read at coordinates. A block of shape [A, B, C] keeps C channels per cell
  (p, q). Loading the unit-stride rectangle of sizes [A, B, 1] at offsets [0, 0, c] takes channel c of every cell,
  and dropping the trailing unit axis by a shape cast gives an [A, B] array: its entry (p, q) is the block's
  entry (p, q, c). The row-major position of (p, q, 0) in [A, B, 1] is that of (p, q) in [A, B], which is all
  the cast needs.
-/
import Idealize.ShloMosaic.Lib.Pipeline.Value
import Idealize.ShloMosaic.Lib.Pipeline.FrameBody
import Idealize.ShloMosaic.Lib.ValueIdx

namespace Idealize.ShloMosaic.ChannelRead

open Idealize.ShloMosaic Idealize.ShloMosaic.ValueIdx

variable {α : Type}

/-- An [A, B, 1] array with its trailing unit axis dropped reads, at (p, q), the operand at (p, q, 0). -/
theorem shapeCast_ab1_ab_apply {A B : ℕ} (x : (⟨3, ![A, B, 1]⟩ : Shape).Idx → α)
    (h : (⟨3, ![A, B, 1]⟩ : Shape).ShapeCasts ⟨2, ![A, B]⟩) (p : Fin A) (q : Fin B) :
    shapeCast ⟨2, ![A, B]⟩ x h (ix2 p q) = x (ix3 p q (0 : Fin 1)) :=
  shapeCast_apply x h _ _ (by
    rw [Shape.rowMajor_val_three, Shape.rowMajor_val_two]
    show (p.val * B + q.val) * 1 + 0 = p.val * B + q.val
    rw [Nat.mul_one, Nat.add_zero])

/-- Channel c of an [A, B, C] block, loaded as an [A, B, 1] rectangle, reads at (p, q, u) the block at (p, q, c). -/
theorem ld_channel_apply {Val : EltTy → Type} {e : EltTy} {A B C : ℕ} (X : (⟨3, ![A, B, C]⟩ : Shape).Idx → Val e) (c : ℕ)
    (inb : ∀ d, (![0, 0, c] : Fin 3 → ℕ) d + (![A, B, 1] : Fin 3 → ℕ) d ≤ (⟨3, ![A, B, C]⟩ : Shape).size d)
    (p : Fin A) (q : Fin B) (u : Fin 1) :
    View.ld X (Rect.unit (s := ⟨3, ![A, B, C]⟩) ![0, 0, c] ![A, B, 1] inb) (ix3 p q u)
      = X (ix3 p q ⟨c, Nat.lt_of_succ_le (inb 2)⟩) := by
  show X ((Rect.unit (s := ⟨3, ![A, B, C]⟩) ![0, 0, c] ![A, B, 1] inb).idx (ix3 p q u)) = _
  refine congrArg X (funext fun d => Fin.ext ?_)
  match d with
  | ⟨0, _⟩ => show 0 + 1 * p.val = p.val; rw [Nat.one_mul, Nat.zero_add]
  | ⟨1, _⟩ => show 0 + 1 * q.val = q.val; rw [Nat.one_mul, Nat.zero_add]
  | ⟨2, _⟩ => show c + 1 * u.val = c; have := u.isLt; omega

/-- The two together: channel c of the block as an [A, B] array, at (p, q), is the block at (p, q, c). -/
theorem channel_apply {Val : EltTy → Type} {e : EltTy} {A B C : ℕ} (X : (⟨3, ![A, B, C]⟩ : Shape).Idx → Val e) (c : ℕ)
    (inb : ∀ d, (![0, 0, c] : Fin 3 → ℕ) d + (![A, B, 1] : Fin 3 → ℕ) d ≤ (⟨3, ![A, B, C]⟩ : Shape).size d)
    (h : (⟨3, ![A, B, 1]⟩ : Shape).ShapeCasts ⟨2, ![A, B]⟩) (p : Fin A) (q : Fin B) :
    shapeCast ⟨2, ![A, B]⟩ (View.ld X (Rect.unit (s := ⟨3, ![A, B, C]⟩) ![0, 0, c] ![A, B, 1] inb)) h (ix2 p q)
      = X (ix3 p q ⟨c, Nat.lt_of_succ_le (inb 2)⟩) :=
  (shapeCast_ab1_ab_apply _ h p q).trans (ld_channel_apply X c inb p q 0)

end Idealize.ShloMosaic.ChannelRead
-- ==== Proof.Bridge.lean ====
/-
  The two results are equal. After its lines before the pseudo-attention each program holds the same mu and the same
  sigma (the shared lines), and K and V as launched. The kernel's grid then writes back, row by row, the sums
  ∑ d, exp((K − mu)² · (−1/2 / (sigma² + e))) · V; the reference's lines compute ∑ d, exp(((−1/2) · (K − mu)²) / (sigma² + e)) · V:
  the same numbers, by the one law of the extended reals that holds without finiteness (the denominator is never
  zero). The lines after the pseudo-attention are shared again, so the results agree.
-/
import proofs.«138627_j71528385347626_2_alg».proof.Proof.Glue
import proofs.«138627_j71528385347626_2_alg».proof.Proof.KPost
import proofs.«138627_j71528385347626_2_alg».proof.Proof.RPost
import proofs.«138627_j71528385347626_2_alg».proof.Proof.RefMid
import proofs.«138627_j71528385347626_2_alg».proof.Proof.KValue
import proofs.«138627_j71528385347626_2_alg».proof.Proof.Law
import proofs.«138627_j71528385347626_2_alg».proof.Proof.LibChannelRead

set_option maxRecDepth 16384

noncomputable section

namespace Cert.Glue

open Idealize.ShloMosaic Idealize.ShloMosaic.TcCoe Idealize.SL.Sem Idealize.ShloMosaic.StableHlo Idealize.ShloMosaic.ValueIdx
open scoped BigOperators

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel program's contents when the region is entered, -/
abbrev UK : VK := Cert.KernelIdeal.Hand.V0 m c
/-- the reference's launch contents, and its contents before the pseudo-attention's lines. -/
abbrev LR : VR := launchContents m' c
abbrev WR : VR := after (Cert.ReferenceIdeal.Hand.preR (F := Ideal)) (LR m' c)

theorem WR_arg (r' : Ref Cert.ReferenceIdeal.sig .tc) (hr' : r' ∈ Cert.ReferenceIdeal.Hand.argRefs) :
    WR m' c (Proc.devRef .tc r') = m' ((c.tc : Thread Cert.ReferenceIdeal.nD Cert.ReferenceIdeal.τ).loc r') := Cert.ReferenceIdeal.Hand.keeps_pre _ r' hr'

theorem UK_arg (r : Ref Cert.KernelIdeal.sig .tc) (hr : r ∈ Cert.KernelIdeal.Hand.argRefs) :
    UK m c (Proc.devRef .tc r) = m ((c.tc : Thread Cert.KernelIdeal.nD Cert.KernelIdeal.τ).loc r) := Cert.KernelIdeal.Hand.V_arg m c r hr

/-- The kernel program's contents after the first line after the region. -/
abbrev Y1 : VK := (reshapeK).result (Cert.KernelIdeal.Hand.exitV m c)

theorem Y1_arg (r : Ref Cert.KernelIdeal.sig .tc) (hr : r ∈ Cert.KernelIdeal.Hand.argRefs) (h32 : r ≠ Cert.KernelIdeal.main_v32) (hne : ∀ w, Pipeline.arrRef Cert.KernelIdeal.spec0 w ≠ r) :
    Y1 m c (Proc.devRef .tc r) = m ((c.tc : Thread Cert.KernelIdeal.nD Cert.KernelIdeal.τ).loc r) := by
  unfold Y1 reshapeK
  rw [reshape_result_ne _ _ _ _ _ _ _ h32]
  exact (Pipeline.withArrays_of_ne Cert.KernelIdeal.spec0 c (Cert.KernelIdeal.Hand.V0 m c) _ r hne).trans (UK_arg m c r hr)

/-- The attention rows: the reference's sum over the last axis is the kernel's written-back column, read as rows. -/
theorem rows_eq
    (a0 : LR m' c (Cert.ReferenceIdeal.main_arg0 : DevRef Cert.ReferenceIdeal.τ Cert.ReferenceIdeal.sig) = (fun b => m (c, b) : VK) (Cert.KernelIdeal.main_arg0 : DevRef Cert.KernelIdeal.τ Cert.KernelIdeal.sig))
    (a1 : LR m' c (Cert.ReferenceIdeal.main_arg1 : DevRef Cert.ReferenceIdeal.τ Cert.ReferenceIdeal.sig) = (fun b => m (c, b) : VK) (Cert.KernelIdeal.main_arg1 : DevRef Cert.KernelIdeal.τ Cert.KernelIdeal.sig))
    (a2 : LR m' c (Cert.ReferenceIdeal.main_arg2 : DevRef Cert.ReferenceIdeal.τ Cert.ReferenceIdeal.sig) = (fun b => m (c, b) : VK) (Cert.KernelIdeal.main_arg2 : DevRef Cert.KernelIdeal.τ Cert.KernelIdeal.sig))
    (a3 : LR m' c (Cert.ReferenceIdeal.main_arg3 : DevRef Cert.ReferenceIdeal.τ Cert.ReferenceIdeal.sig) = (fun b => m (c, b) : VK) (Cert.KernelIdeal.main_arg3 : DevRef Cert.KernelIdeal.τ Cert.KernelIdeal.sig))
    (a4 : LR m' c (Cert.ReferenceIdeal.main_arg4 : DevRef Cert.ReferenceIdeal.τ Cert.ReferenceIdeal.sig) = (fun b => m (c, b) : VK) (Cert.KernelIdeal.main_arg4 : DevRef Cert.KernelIdeal.τ Cert.KernelIdeal.sig))
    (a5 : LR m' c (Cert.ReferenceIdeal.main_arg5 : DevRef Cert.ReferenceIdeal.τ Cert.ReferenceIdeal.sig) = (fun b => m (c, b) : VK) (Cert.KernelIdeal.main_arg5 : DevRef Cert.KernelIdeal.τ Cert.KernelIdeal.sig))
    (a6 : LR m' c (Cert.ReferenceIdeal.main_arg6 : DevRef Cert.ReferenceIdeal.τ Cert.ReferenceIdeal.sig) = (fun b => m (c, b) : VK) (Cert.KernelIdeal.main_arg6 : DevRef Cert.KernelIdeal.τ Cert.KernelIdeal.sig))
    (a13 : LR m' c (Cert.ReferenceIdeal.main_arg13 : DevRef Cert.ReferenceIdeal.τ Cert.ReferenceIdeal.sig) = (fun b => m (c, b) : VK) (Cert.KernelIdeal.main_arg13 : DevRef Cert.KernelIdeal.τ Cert.KernelIdeal.sig))
    (a14 : LR m' c (Cert.ReferenceIdeal.main_arg14 : DevRef Cert.ReferenceIdeal.τ Cert.ReferenceIdeal.sig) = (fun b => m (c, b) : VK) (Cert.KernelIdeal.main_arg14 : DevRef Cert.KernelIdeal.τ Cert.KernelIdeal.sig)) :
    after (Cert.ReferenceIdeal.Hand.midR (F := Ideal)) (WR m' c) (Cert.ReferenceIdeal.main_v43 : DevRef Cert.ReferenceIdeal.τ Cert.ReferenceIdeal.sig) = Y1 m c (Cert.KernelIdeal.main_v32 : DevRef Cert.KernelIdeal.τ Cert.KernelIdeal.sig) := by
  obtain ⟨hmu, hsg⟩ := pre_eq (LR m' c) (fun b => m (c, b)) a0 a3 a4 a5 a6 a13 a14
  have hK : WR m' c (Cert.ReferenceIdeal.main_arg1 : DevRef Cert.ReferenceIdeal.τ Cert.ReferenceIdeal.sig) = UK m c (Cert.KernelIdeal.main_arg1 : DevRef Cert.KernelIdeal.τ Cert.KernelIdeal.sig) :=
    (WR_arg m' c _ (by decide)).trans (a1.trans (UK_arg m c _ (by decide)).symm)
  have hV : WR m' c (Cert.ReferenceIdeal.main_arg2 : DevRef Cert.ReferenceIdeal.τ Cert.ReferenceIdeal.sig) = UK m c (Cert.KernelIdeal.main_arg2 : DevRef Cert.KernelIdeal.τ Cert.KernelIdeal.sig) :=
    (WR_arg m' c _ (by decide)).trans (a2.trans (UK_arg m c _ (by decide)).symm)
  have hv31 : Cert.KernelIdeal.Hand.exitV m c (Cert.KernelIdeal.main_v31 : DevRef Cert.KernelIdeal.τ Cert.KernelIdeal.sig) = (Cert.KernelIdeal.Hand.dats (F := Ideal) m 0 c).arrAt 4 Cert.KernelIdeal.cfg0.N :=
    Pipeline.withArrays_arr Cert.KernelIdeal.spec0 Cert.KernelIdeal.Gen.launch0.win.arr_inj c _ _ 4
  funext i
  obtain ⟨b, n, rfl⟩ : ∃ (b : Fin 32) (n : Fin 1024), i = ix2 b n := ⟨i 0, i 1, eq_ix2 i⟩
  refine (Cert.ReferenceIdeal.HandValue.mid_apply_of_eq (WR m' c) _ _ _ _ hK hV hmu hsg b n).trans ?_
  unfold Y1 reshapeK
  rw [reshape_result]
  show _ = shapeCast ⟨2, ![32, 1024]⟩ (Cert.KernelIdeal.Hand.exitV m c (Cert.KernelIdeal.main_v31 : DevRef Cert.KernelIdeal.τ Cert.KernelIdeal.sig)) _ (ix2 b n)
  refine Eq.trans ?_ (Idealize.ShloMosaic.ChannelRead.shapeCast_ab1_ab_apply _ _ b n).symm
  rw [hv31]
  refine Eq.trans ?_ ((Cert.KernelIdeal.HandValue.final4 m c b n).trans (Cert.KernelIdeal.HandValue.rowValue_eq _ _ _ _ b n)).symm
  show (Finset.univ.sum fun d : Fin 1024 => (_ : EReal)) = Finset.univ.sum fun d : Fin 1024 => (_ : EReal)
  refine Finset.sum_congr rfl fun d _ => ?_
  rw [Cert.Law.scale_eq]

/-- THE RESULTS AGREE: the reference's result buffer and the kernel program's, from launch contents that agree on
    the fifteen arguments. -/
theorem result_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    after (Cert.ReferenceIdeal.Hand.ops (F := Ideal)) (LR m' c) (Cert.ReferenceIdeal.main_v74 : DevRef Cert.ReferenceIdeal.τ Cert.ReferenceIdeal.sig)
      = after (List.flatten (Cert.KernelIdeal.Hand.tailOps (F := Ideal))) (Cert.KernelIdeal.Hand.exitV m c) (Cert.KernelIdeal.main_v63 : DevRef Cert.KernelIdeal.τ Cert.KernelIdeal.sig) := by
  rw [Cert.ReferenceIdeal.Hand.after_ops, tail_split, after_cons]
  exact tail_eq _ _ (rows_eq m m' c a0 a1 a2 a3 a4 a5 a6 a13 a14)
    ((Cert.ReferenceIdeal.Hand.keeps_mid _ _ (by decide)).trans ((WR_arg m' c _ (by decide)).trans (a0.trans (Y1_arg m c _ (by decide) (by decide) (by decide)).symm)))
    ((Cert.ReferenceIdeal.Hand.keeps_mid _ _ (by decide)).trans ((WR_arg m' c _ (by decide)).trans (a7.trans (Y1_arg m c _ (by decide) (by decide) (by decide)).symm)))
    ((Cert.ReferenceIdeal.Hand.keeps_mid _ _ (by decide)).trans ((WR_arg m' c _ (by decide)).trans (a8.trans (Y1_arg m c _ (by decide) (by decide) (by decide)).symm)))
    ((Cert.ReferenceIdeal.Hand.keeps_mid _ _ (by decide)).trans ((WR_arg m' c _ (by decide)).trans (a9.trans (Y1_arg m c _ (by decide) (by decide) (by decide)).symm)))
    ((Cert.ReferenceIdeal.Hand.keeps_mid _ _ (by decide)).trans ((WR_arg m' c _ (by decide)).trans (a10.trans (Y1_arg m c _ (by decide) (by decide) (by decide)).symm)))
    ((Cert.ReferenceIdeal.Hand.keeps_mid _ _ (by decide)).trans ((WR_arg m' c _ (by decide)).trans (a11.trans (Y1_arg m c _ (by decide) (by decide) (by decide)).symm)))
    ((Cert.ReferenceIdeal.Hand.keeps_mid _ _ (by decide)).trans ((WR_arg m' c _ (by decide)).trans (a12.trans (Y1_arg m c _ (by decide) (by decide) (by decide)).symm)))

end Cert.Glue

end
-- ==== Proof.lean ====
/-
  The certificate of the Gaussian pseudo-attention block: a Pallas kernel that, per batch row b and token n, writes
      ∑ d, exp((K(b,n,d) − mu(b,n))² · ((−1/2) / (sigma(b,n)² + e))) · V(b,n,d)
  inside a jax program that computes mu = tanh(LN(Q)·Wmuᵀ + bmu) and sigma = LN(Q)·Wsigmaᵀ + bsigma before it and a
  residual, a second layer norm and a SiLU feed-forward block after it, against the plain jnp reference that writes the
  same block with exp(((−1/2)·(K − mu)²) / (sigma² + e)).

  The three frames: each program terminates without a fault and leaves its fifteen arguments unchanged. For the two
  kernel programs (the printed one read at words, its idealization read at extended reals: the same text) @main is
  host lines, one pipeline region over 32 grid points, host lines; the region's body loads its four input blocks whole
  and stores one column, so the library's frame run around a region applies with the body's one triple; no host line
  writes an argument, K and V come back from their input windows as found. The reference is a straight line of host
  operations. The ideal pass rewrote nothing, so there is nothing to preserve. At the extended reals the two
  results are equal: the lines before and after the pseudo-attention are the same lines in both programs, and the
  pseudo-attention's two arrangements agree entry by entry because s·s + e is never zero on the extended reals
  (a square is never negative there), so the quotient is a product with an inverse and products commute and
  associate. The inputs' finiteness is not used.
-/
import proofs.«138627_j71528385347626_2_alg».proof.Defs
import proofs.«138627_j71528385347626_2_alg».proof.Proof.Gen.Kernel
import proofs.«138627_j71528385347626_2_alg».proof.Proof.Gen.KernelIdeal
import proofs.«138627_j71528385347626_2_alg».proof.Proof.Gen.ReferenceIdeal
import proofs.«138627_j71528385347626_2_alg».proof.Proof.Gen.Pre_finite_inputs
import proofs.«138627_j71528385347626_2_alg».proof.Proof.BPost
import proofs.«138627_j71528385347626_2_alg».proof.Proof.KPost
import proofs.«138627_j71528385347626_2_alg».proof.Proof.RPost
import proofs.«138627_j71528385347626_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The printed kernel program's frame, at words. -/
theorem frame_k : Cert.frame_Kernel := fun m ρ _ => Cert.Kernel.Hand.frame (F := Bits) m ρ

/-- Its idealization's frame, at extended reals. -/
theorem frame_ki : Cert.frame_KernelIdeal := fun m ρ _ => Cert.KernelIdeal.Hand.frame (F := Ideal) m ρ

/-- The reference's frame. -/
theorem frame_ri : Cert.frame_ReferenceIdeal := fun m ρ _ => Cert.ReferenceIdeal.Hand.frame (F := Ideal) m ρ

/-- The ideal pass rewrote no operation. -/
theorem preserves : Cert.preserves_Kernel_KernelIdeal := trivial

/-- At the extended reals both programs end, from memories agreeing on the arguments, with equal results: the kernel
    program's result buffer holds the fold of its last lines over the region's exit contents, the reference's the
    fold of all its lines over the launch contents, and the two folds agree. -/
theorem algebraic : Cert.algebraic_KernelIdeal_ReferenceIdeal := by
  intro m ρ m' ρ' _ hagree
  refine ⟨fun c => after (List.flatten (Cert.KernelIdeal.Hand.tailOps (F := Ideal))) (Cert.KernelIdeal.Hand.exitV m c)
      (Proc.devRef .tc Cert.KernelIdeal.main_v63), ?_, ?_⟩
  · exact (θ_run Cert.KernelIdeal.defs _ _).mono (fun r h c => Cert.KernelIdeal.Hand.post_read m r h c)
      (Cert.KernelIdeal.Hand.run_main (F := Ideal) m ρ)
  · refine (θ_run Cert.ReferenceIdeal.defs _ _).mono (fun r h c => ⟨(h c).1.trans ?_, (h c).2⟩)
      (Cert.ReferenceIdeal.Hand.run_value (F := Ideal) m' ρ')
    exact Cert.Glue.result_eq m m' c
      (hagree c).1
      (hagree c).2.1
      (hagree c).2.2.1
      (hagree c).2.2.2.1
      (hagree c).2.2.2.2.1
      (hagree c).2.2.2.2.2.1
      (hagree c).2.2.2.2.2.2.1
      (hagree c).2.2.2.2.2.2.2.1
      (hagree c).2.2.2.2.2.2.2.2.1
      (hagree c).2.2.2.2.2.2.2.2.2.1
      (hagree c).2.2.2.2.2.2.2.2.2.2.1
      (hagree c).2.2.2.2.2.2.2.2.2.2.2.1
      (hagree c).2.2.2.2.2.2.2.2.2.2.2.2.1
      (hagree c).2.2.2.2.2.2.2.2.2.2.2.2.2.1
      (hagree c).2.2.2.2.2.2.2.2.2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
